-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x50x1024 : Shape := ⟨3, ![128, 50, 1024]⟩
abbrev S128x40x1024 : Shape := ⟨3, ![128, 40, 1024]⟩
abbrev S128 : Shape := ⟨1, ![128]⟩
abbrev S_ : Shape := ⟨0, ![]⟩

class Facts : Prop where
  bcast_S_S128x50x1024 : S_.BroadcastsInDim S128x50x1024 (![] : Fin 0 → Fin S128x50x1024.rank)
  reducesTo_S128x50x1024_S_d0_1_2 : S128x50x1024.ReducesTo [0, 1, 2] S_
  h_S_ : 0 < S_.numel
  bcast_S_S128x40x1024 : S_.BroadcastsInDim S128x40x1024 (![] : Fin 0 → Fin S128x40x1024.rank)
  reducesTo_S128x40x1024_S_d0_1_2 : S128x40x1024.ReducesTo [0, 1, 2] S_

variable [Facts]

def fn {F : FTy → Type} [FloatOps F] (main_arg0 : FVec F S128x50x1024 .f32) (main_arg1 : FVec F S128x40x1024 .f32) (main_arg2 : IVec S128 32) (main_arg3 : IVec S128 32) : IVec S_ 1 :=
  let main_v0 : FVec F S128x50x1024 .f32 := Host.absf main_arg0
  let main_cst : FVec F S_ .f32 := constant S_ .f32 0x7F800000#32
  let main_v1 : FVec F S128x50x1024 .f32 := broadcastInDim S128x50x1024 ![] bcast_S_S128x50x1024 main_cst
  let main_v2 : IVec S128x50x1024 1 := cmpf .olt main_v0 main_v1
  let main_c : IVec S_ 1 := constantI S_ 1 1#1
  let main_v3 : IVec S_ 1 := (fun x v => Host.reduce IntOp.andi x v reducesTo_S128x50x1024_S_d0_1_2 h_S_) main_v2 main_c
  let main_v4 : FVec F S128x40x1024 .f32 := Host.absf main_arg1
  let main_cst_0 : FVec F S_ .f32 := constant S_ .f32 0x7F800000#32
  let main_v5 : FVec F S128x40x1024 .f32 := broadcastInDim S128x40x1024 ![] bcast_S_S128x40x1024 main_cst_0
  let main_v6 : IVec S128x40x1024 1 := cmpf .olt main_v4 main_v5
  let main_c_1 : IVec S_ 1 := constantI S_ 1 1#1
  let main_v7 : IVec S_ 1 := (fun x v => Host.reduce IntOp.andi x v reducesTo_S128x40x1024_S_d0_1_2 h_S_) main_v6 main_c_1
  let main_v8 : IVec S_ 1 := andi main_v3 main_v7
  main_v8
-- ==== Kernel.lean ====
abbrev S128x50x1024 : Shape := ⟨3, ![128, 50, 1024]⟩
abbrev S128x40x1024 : Shape := ⟨3, ![128, 40, 1024]⟩
abbrev S128 : Shape := ⟨1, ![128]⟩
abbrev S128x49x1024 : Shape := ⟨3, ![128, 49, 1024]⟩
abbrev S128x37x1024 : Shape := ⟨3, ![128, 37, 1024]⟩
abbrev S_ : Shape := ⟨0, ![]⟩
abbrev S49 : Shape := ⟨1, ![49]⟩
abbrev S1x49 : Shape := ⟨2, ![1, 49]⟩
abbrev S128x1 : Shape := ⟨2, ![128, 1]⟩
abbrev S128x49 : Shape := ⟨2, ![128, 49]⟩
abbrev S37 : Shape := ⟨1, ![37]⟩
abbrev S1x37 : Shape := ⟨2, ![1, 37]⟩
abbrev S128x37 : Shape := ⟨2, ![128, 37]⟩
abbrev S128x128 : Shape := ⟨2, ![128, 128]⟩
abbrev S32x37x1024 : Shape := ⟨3, ![32, 37, 1024]⟩
abbrev S32x37 : Shape := ⟨2, ![32, 37]⟩
abbrev S32x128 : Shape := ⟨2, ![32, 128]⟩
abbrev S6272x1024 : Shape := ⟨2, ![6272, 1024]⟩
abbrev S128x49x1 : Shape := ⟨3, ![128, 49, 1]⟩
abbrev S1x37x1024 : Shape := ⟨3, ![1, 37, 1024]⟩
abbrev S37x1024 : Shape := ⟨2, ![37, 1024]⟩
abbrev S6272x37 : Shape := ⟨2, ![6272, 37]⟩
abbrev S128x49x37 : Shape := ⟨3, ![128, 49, 37]⟩
abbrev S1x1x37 : Shape := ⟨3, ![1, 1, 37]⟩
abbrev S1x128 : Shape := ⟨2, ![1, 128]⟩

abbrev nBuf : Space → Nat
  | .hbm => 30
  | .vmem => 8
  | .smem => 0
  | _ => 0

abbrev bufTy : (tb : Table) → Fin (tcTables nBuf tb) → BufTy
  | .hbm, ⟨0, _⟩ => ⟨S128x50x1024, .f32⟩
  | .hbm, ⟨1, _⟩ => ⟨S128x40x1024, .f32⟩
  | .hbm, ⟨2, _⟩ => ⟨S128, .i32⟩
  | .hbm, ⟨3, _⟩ => ⟨S128, .i32⟩
  | .hbm, ⟨4, _⟩ => ⟨S128x49x1024, .f32⟩
  | .hbm, ⟨5, _⟩ => ⟨S128x37x1024, .f32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S49, .i32⟩
  | .hbm, ⟨13, _⟩ => ⟨S1x49, .i32⟩
  | .hbm, ⟨14, _⟩ => ⟨S128x1, .i32⟩
  | .hbm, ⟨15, _⟩ => ⟨S128x49, .i32⟩
  | .hbm, ⟨16, _⟩ => ⟨S128x49, .i32⟩
  | .hbm, ⟨17, _⟩ => ⟨S128x49, .i1⟩
  | .hbm, ⟨18, _⟩ => ⟨S128x49, .f32⟩
  | .hbm, ⟨19, _⟩ => ⟨S37, .i32⟩
  | .hbm, ⟨20, _⟩ => ⟨S1x37, .i32⟩
  | .hbm, ⟨21, _⟩ => ⟨S128x1, .i32⟩
  | .hbm, ⟨22, _⟩ => ⟨S128x37, .i32⟩
  | .hbm, ⟨23, _⟩ => ⟨S128x37, .i32⟩
  | .hbm, ⟨24, _⟩ => ⟨S128x37, .i1⟩
  | .hbm, ⟨25, _⟩ => ⟨S128x37, .f32⟩
  | .hbm, ⟨26, _⟩ => ⟨S128x49x1024, .bf16⟩
  | .hbm, ⟨27, _⟩ => ⟨S128x37x1024, .bf16⟩
  | .hbm, ⟨28, _⟩ => ⟨S128x128, .f32⟩
  | .hbm, ⟨29, _⟩ => ⟨S128x128, .f32⟩
  | .local _ .vmem, ⟨0, _⟩ => ⟨S128x49x1024, .bf16⟩
  | .local _ .vmem, ⟨1, _⟩ => ⟨S128x49, .f32⟩
  | .local _ .vmem, ⟨2, _⟩ => ⟨S32x37x1024, .bf16⟩
  | .local _ .vmem, ⟨3, _⟩ => ⟨S32x37x1024, .bf16⟩
  | .local _ .vmem, ⟨4, _⟩ => ⟨S32x37, .f32⟩
  | .local _ .vmem, ⟨5, _⟩ => ⟨S32x37, .f32⟩
  | .local _ .vmem, ⟨6, _⟩ => ⟨S32x128, .f32⟩
  | .local _ .vmem, ⟨7, _⟩ => ⟨S32x128, .f32⟩
  | _, _ => ⟨S128x50x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_off1 (k0_t1 : Fin k0_t1_loop.trips) : Fin 3 → Nat :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v7 : BitVec 32 := Scalar.muli arg6 c1_i32_5
  let v8 : BitVec 32 := Scalar.addi c0_i32_6 v7
  let v9 : Index := Scalar.indexCast v8
  let c0_7 : Index := 0#32
  let c0_8 : Index := 0#32
  ![v9.toNat, 0, 0]
def k0_off2 (k0_t1 : Fin k0_t1_loop.trips) : Fin 2 → Nat :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v7 : BitVec 32 := Scalar.muli arg6 c1_i32_5
  let v8 : BitVec 32 := Scalar.addi c0_i32_6 v7
  let v12 : Index := Scalar.indexCast v8
  let c0_9 : Index := 0#32
  ![v12.toNat, 0]
def k0_off3 (k0_t1 : Fin k0_t1_loop.trips) : Fin 2 → Nat :=
  let c0_i32_6 : BitVec 32 := 0#32
  let c0_i32 : BitVec 32 := 0#32
  let c1_i32 : BitVec 32 := 1#32
  let arg6 : BitVec 32 := Scf.iv c0_i32 c1_i32 k0_t1
  let c1_i32_5 : BitVec 32 := 1#32
  let v7 : BitVec 32 := Scalar.muli arg6 c1_i32_5
  let v8 : BitVec 32 := Scalar.addi c0_i32_6 v7
  let v30 : Index := Scalar.indexCast v8
  let c0_14 : Index := 0#32
  ![v30.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x49x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x49 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x37x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x37 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S128x50x1024_S128x49x1024_0_1_0 : S128x50x1024.Slices ![0, 1, 0] S128x49x1024
  slices_S128x40x1024_S128x37x1024_0_1_0 : S128x40x1024.Slices ![0, 1, 0] S128x37x1024
  bcast_S_S128 : S_.BroadcastsInDim S128 (![] : Fin 0 → Fin S128.rank)
  bcast_S49_S1x49_1 : S49.BroadcastsInDim S1x49 (![1] : Fin 1 → Fin S1x49.rank)
  bcast_S128_S128x1_0 : S128.BroadcastsInDim S128x1 (![0] : Fin 1 → Fin S128x1.rank)
  bcast_S1x49_S128x49_0_1 : S1x49.BroadcastsInDim S128x49 (![0, 1] : Fin 2 → Fin S128x49.rank)
  bcast_S128x1_S128x49_0_1 : S128x1.BroadcastsInDim S128x49 (![0, 1] : Fin 2 → Fin S128x49.rank)
  bcast_S37_S1x37_1 : S37.BroadcastsInDim S1x37 (![1] : Fin 1 → Fin S1x37.rank)
  bcast_S1x37_S128x37_0_1 : S1x37.BroadcastsInDim S128x37 (![0, 1] : Fin 2 → Fin S128x37.rank)
  bcast_S128x1_S128x37_0_1 : S128x1.BroadcastsInDim S128x37 (![0, 1] : Fin 2 → Fin S128x37.rank)
  bitsLt_bf16_f32 : FTy.bits .bf16 < FTy.bits .f32
  inb_S128x49x1024_S128x49x1024_0_0_0 : ∀ a, (![0, 0, 0] : Fin 3 → Nat) a + S128x49x1024.size a ≤ S128x49x1024.size a
  h_S128x49x1024 : 0 < S128x49x1024.numel
  shapeCasts_S128x49x1024_S128x49x1024 : S128x49x1024.ShapeCasts S128x49x1024
  inb_S128x49_S128x49_0_0 : ∀ a, (![0, 0] : Fin 2 → Nat) a + S128x49.size a ≤ S128x49.size a
  h_S128x49 : 0 < S128x49.numel
  shapeCasts_S128x49_S128x49 : S128x49.ShapeCasts S128x49
  shapeCasts_S128x49x1024_S6272x1024 : S128x49x1024.ShapeCasts S6272x1024
  shapeCasts_S128x49_S128x49x1 : S128x49.ShapeCasts S128x49x1
  h_S1x37x1024 : 0 < S1x37x1024.numel
  shapeCasts_S1x37x1024_S37x1024 : S1x37x1024.ShapeCasts S37x1024
  h_S1x37 : 0 < S1x37.numel
  shapeCasts_S1x37_S37 : S1x37.ShapeCasts S37
  shapeCasts_S6272x37_S128x49x37 : S6272x37.ShapeCasts S128x49x37
  shapeCasts_S37_S1x1x37 : S37.ShapeCasts S1x1x37
  broadcasts_S128x49x1_S128x49x37 : S128x49x1.Broadcasts S128x49x37
  broadcasts_S1x1x37_S128x49x37 : S1x1x37.Broadcasts S128x49x37
  reduces_S128x49x37_S128x37 : S128x49x37.Reduces [1] S128x37
  reduces_S128x37_S128 : S128x37.Reduces [1] S128
  shapeCasts_S128_S128x1 : S128.ShapeCasts S128x1
  reduces_S128x49x37_S128x49 : S128x49x37.Reduces [2] S128x49
  reduces_S128x49x1_S128x1 : S128x49x1.Reduces [1] S128x1
  shapeCasts_S128x1_S128 : S128x1.ShapeCasts S128
  h_S1x128 : 0 < S1x128.numel
  shapeCasts_S1x128_S128 : S1x128.ShapeCasts S128
  shapeCasts_S128_S1x128 : S128.ShapeCasts S1x128
  transposes_S128x128_S128x128_1_0 : S128x128.Transposes [1, 0] S128x128
  dot_S6272x1024_S37x1024_S6272x37_1_1_0_0_n_n_wf : DotDims.WF S6272x1024 S37x1024 S6272x37 [1] [1] [0] [0] [] []
  hrank0 : 0 < grid0.rank
  k0_t1_ok : k0_t1_loop.OK
  k0_off1_inb : ∀ k0_t1 : Fin k0_t1_loop.trips, ∀ a, (k0_off1 k0_t1) a + S1x37x1024.size a ≤ S32x37x1024.size a
  k0_off2_inb : ∀ k0_t1 : Fin k0_t1_loop.trips, ∀ a, (k0_off2 k0_t1) a + S1x37.size a ≤ S32x37.size a
  k0_off3_inb : ∀ k0_t1 : Fin k0_t1_loop.trips, ∀ a, (k0_off3 k0_t1) a + S1x128.size a ≤ S32x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x49x1024.size a ≤ S128x49x1024.size a
  hwx0_0 : ∀ i : grid0.Coords, EltTy.bits .bf16 = 32 ∨ (Rect.block (s := S128x49x1024) S128x49x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x49.size a ≤ S128x49.size a
  hwx0_1 : ∀ i : grid0.Coords, EltTy.bits .f32 = 32 ∨ (Rect.block (s := S128x49) S128x49.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x37x1024.size a ≤ S128x37x1024.size a
  hwx0_2 : ∀ i : grid0.Coords, EltTy.bits .bf16 = 32 ∨ (Rect.block (s := S128x37x1024) S32x37x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x37.size a ≤ S128x37.size a
  hwx0_3 : ∀ i : grid0.Coords, EltTy.bits .f32 = 32 ∨ (Rect.block (s := S128x37) S32x37.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S128x128.size a
  hwx0_4 : ∀ i : grid0.Coords, EltTy.bits .f32 = 32 ∨ (Rect.block (s := S128x128) S32x128.size (cc0_transform_4 i) (hinb0_4 i)).WholeWords (EltTy.packing .f32)

variable [Facts₀]

def dot_S6272x1024_S37x1024_S6272x37_1_1_0_0_n_n : DotDims S6272x1024 S37x1024 S6272x37 where
  lhsContracting := [1]
  rhsContracting := [1]
  lhsNonContracting := [0]
  rhsNonContracting := [0]
  lhsBatch := []
  rhsBatch := []
  wf := dot_S6272x1024_S37x1024_S6272x37_1_1_0_0_n_n_wf

abbrev win0_0 : Pipeline.Window sig grid0 :=
  Pipeline.Window.ofSpec (Memref.whole main_v20) S128x49x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x49.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S32x37x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S32x37.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S32x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x50x1024 : Shape := ⟨3, ![128, 50, 1024]⟩
abbrev S128x40x1024 : Shape := ⟨3, ![128, 40, 1024]⟩
abbrev S128 : Shape := ⟨1, ![128]⟩
abbrev S128x49x1024 : Shape := ⟨3, ![128, 49, 1024]⟩
abbrev S128x37x1024 : Shape := ⟨3, ![128, 37, 1024]⟩
abbrev S_ : Shape := ⟨0, ![]⟩
abbrev S128x37x128x49 : Shape := ⟨4, ![128, 37, 128, 49]⟩
abbrev S128x128x49x37 : Shape := ⟨4, ![128, 128, 49, 37]⟩
abbrev S49 : Shape := ⟨1, ![49]⟩
abbrev S1x49 : Shape := ⟨2, ![1, 49]⟩
abbrev S128x1 : Shape := ⟨2, ![128, 1]⟩
abbrev S128x49 : Shape := ⟨2, ![128, 49]⟩
abbrev S37 : Shape := ⟨1, ![37]⟩
abbrev S1x37 : Shape := ⟨2, ![1, 37]⟩
abbrev S128x37 : Shape := ⟨2, ![128, 37]⟩
abbrev S128x1x49x1 : Shape := ⟨4, ![128, 1, 49, 1]⟩
abbrev S1x128x1x37 : Shape := ⟨4, ![1, 128, 1, 37]⟩
abbrev S128x128x37 : Shape := ⟨3, ![128, 128, 37]⟩
abbrev S128x128 : Shape := ⟨2, ![128, 128]⟩
abbrev S128x128x49 : Shape := ⟨3, ![128, 128, 49]⟩

abbrev nBuf : Space → Nat
  | .hbm => 44
  | .vmem => 0
  | .smem => 0
  | _ => 0

abbrev bufTy : (tb : Table) → Fin (tcTables nBuf tb) → BufTy
  | .hbm, ⟨0, _⟩ => ⟨S128x50x1024, .f32⟩
  | .hbm, ⟨1, _⟩ => ⟨S128x40x1024, .f32⟩
  | .hbm, ⟨2, _⟩ => ⟨S128, .i32⟩
  | .hbm, ⟨3, _⟩ => ⟨S128, .i32⟩
  | .hbm, ⟨4, _⟩ => ⟨S128x49x1024, .f32⟩
  | .hbm, ⟨5, _⟩ => ⟨S128x37x1024, .f32⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128x37x128x49, .f32⟩
  | .hbm, ⟨13, _⟩ => ⟨S128x128x49x37, .f32⟩
  | .hbm, ⟨14, _⟩ => ⟨S49, .i32⟩
  | .hbm, ⟨15, _⟩ => ⟨S1x49, .i32⟩
  | .hbm, ⟨16, _⟩ => ⟨S128x1, .i32⟩
  | .hbm, ⟨17, _⟩ => ⟨S128x49, .i32⟩
  | .hbm, ⟨18, _⟩ => ⟨S128x49, .i32⟩
  | .hbm, ⟨19, _⟩ => ⟨S128x49, .i1⟩
  | .hbm, ⟨20, _⟩ => ⟨S37, .i32⟩
  | .hbm, ⟨21, _⟩ => ⟨S1x37, .i32⟩
  | .hbm, ⟨22, _⟩ => ⟨S128x1, .i32⟩
  | .hbm, ⟨23, _⟩ => ⟨S128x37, .i32⟩
  | .hbm, ⟨24, _⟩ => ⟨S128x37, .i32⟩
  | .hbm, ⟨25, _⟩ => ⟨S128x37, .i1⟩
  | .hbm, ⟨26, _⟩ => ⟨S128x1x49x1, .i1⟩
  | .hbm, ⟨27, _⟩ => ⟨S1x128x1x37, .i1⟩
  | .hbm, ⟨28, _⟩ => ⟨S128x128x49x37, .i1⟩
  | .hbm, ⟨29, _⟩ => ⟨S128x128x49x37, .i1⟩
  | .hbm, ⟨30, _⟩ => ⟨S128x128x49x37, .i1⟩
  | .hbm, ⟨31, _⟩ => ⟨S_, .f32⟩
  | .hbm, ⟨32, _⟩ => ⟨S_, .f32⟩
  | .hbm, ⟨33, _⟩ => ⟨S128x128x49x37, .f32⟩
  | .hbm, ⟨34, _⟩ => ⟨S128x128x49x37, .f32⟩
  | .hbm, ⟨35, _⟩ => ⟨S_, .f32⟩
  | .hbm, ⟨36, _⟩ => ⟨S128x128x37, .f32⟩
  | .hbm, ⟨37, _⟩ => ⟨S_, .f32⟩
  | .hbm, ⟨38, _⟩ => ⟨S128x128, .f32⟩
  | .hbm, ⟨39, _⟩ => ⟨S_, .f32⟩
  | .hbm, ⟨40, _⟩ => ⟨S128x128x49, .f32⟩
  | .hbm, ⟨41, _⟩ => ⟨S_, .f32⟩
  | .hbm, ⟨42, _⟩ => ⟨S128x128, .f32⟩
  | .hbm, ⟨43, _⟩ => ⟨S128x128, .f32⟩
  | _, _ => ⟨S128x50x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S128x50x1024_S128x49x1024_0_1_0 : S128x50x1024.Slices ![0, 1, 0] S128x49x1024
  slices_S128x40x1024_S128x37x1024_0_1_0 : S128x40x1024.Slices ![0, 1, 0] S128x37x1024
  bcast_S_S128 : S_.BroadcastsInDim S128 (![] : Fin 0 → Fin S128.rank)
  transposes_S128x37x128x49_S128x128x49x37_2_0_3_1 : S128x37x128x49.Transposes [2, 0, 3, 1] S128x128x49x37
  bcast_S49_S1x49_1 : S49.BroadcastsInDim S1x49 (![1] : Fin 1 → Fin S1x49.rank)
  bcast_S128_S128x1_0 : S128.BroadcastsInDim S128x1 (![0] : Fin 1 → Fin S128x1.rank)
  bcast_S1x49_S128x49_0_1 : S1x49.BroadcastsInDim S128x49 (![0, 1] : Fin 2 → Fin S128x49.rank)
  bcast_S128x1_S128x49_0_1 : S128x1.BroadcastsInDim S128x49 (![0, 1] : Fin 2 → Fin S128x49.rank)
  bcast_S37_S1x37_1 : S37.BroadcastsInDim S1x37 (![1] : Fin 1 → Fin S1x37.rank)
  bcast_S1x37_S128x37_0_1 : S1x37.BroadcastsInDim S128x37 (![0, 1] : Fin 2 → Fin S128x37.rank)
  bcast_S128x1_S128x37_0_1 : S128x1.BroadcastsInDim S128x37 (![0, 1] : Fin 2 → Fin S128x37.rank)
  bcast_S128x49_S128x1x49x1_0_2 : S128x49.BroadcastsInDim S128x1x49x1 (![0, 2] : Fin 2 → Fin S128x1x49x1.rank)
  bcast_S128x37_S1x128x1x37_1_3 : S128x37.BroadcastsInDim S1x128x1x37 (![1, 3] : Fin 2 → Fin S1x128x1x37.rank)
  bcast_S128x1x49x1_S128x128x49x37_0_1_2_3 : S128x1x49x1.BroadcastsInDim S128x128x49x37 (![0, 1, 2, 3] : Fin 4 → Fin S128x128x49x37.rank)
  bcast_S1x128x1x37_S128x128x49x37_0_1_2_3 : S1x128x1x37.BroadcastsInDim S128x128x49x37 (![0, 1, 2, 3] : Fin 4 → Fin S128x128x49x37.rank)
  bcast_S_S128x128x49x37 : S_.BroadcastsInDim S128x128x49x37 (![] : Fin 0 → Fin S128x128x49x37.rank)
  reducesTo_S128x128x49x37_S128x128x37_d2 : S128x128x49x37.ReducesTo [2] S128x128x37
  h_S_ : 0 < S_.numel
  reducesTo_S128x128x37_S128x128_d2 : S128x128x37.ReducesTo [2] S128x128
  reducesTo_S128x128x49x37_S128x128x49_d3 : S128x128x49x37.ReducesTo [3] S128x128x49
  reducesTo_S128x128x49_S128x128_d2 : S128x128x49.ReducesTo [2] S128x128
  dot_S128x37x1024_S128x49x1024_S128x37x128x49_2_2_01_01_n_n_wf : DotDims.WF S128x37x1024 S128x49x1024 S128x37x128x49 [2] [2] [0, 1] [0, 1] [] []

variable [Facts₀]

def dot_S128x37x1024_S128x49x1024_S128x37x128x49_2_2_01_01_n_n : DotDims S128x37x1024 S128x49x1024 S128x37x128x49 where
  lhsContracting := [2]
  rhsContracting := [2]
  lhsNonContracting := [0, 1]
  rhsNonContracting := [0, 1]
  lhsBatch := []
  rhsBatch := []
  wf := dot_S128x37x1024_S128x49x1024_S128x37x128x49_2_2_01_01_n_n_wf

class Facts : Prop extends Facts₀ where

variable [Facts]
-- ==== Proof.Pieces.lean ====
/-
  What one grid point leaves in its output block.

  The body loads the whole image block and the whole region-mask block once, and then, for each of the 32 rows
  `k` of the point's sentence block, loads row `k` of the sentences and row `k` of the word masks, computes one
  row of 128 numbers from those four pieces of data, and stores it as row `k` of the 32 × 128 output block. The 32
  stores are therefore the restrictions, to the 32 rows, of ONE function of the block index `(k, n)`: the row
  computation applied to the image block, the region masks and row `k` of the two streamed blocks, read at column
  `n`. The rows tile the block, so the block ends up equal to that function everywhere, whatever the order of the
  stores and whatever the buffer held before.
-/
import proofs.«151405_j51453708206435_2_alg».proof.Proof.Gen.KernelIdeal.Frame
import Idealize.ShloMosaic.Lib.Pipeline.Value
import Idealize.ShloMosaic.Lib.ValueIdx

set_option maxRecDepth 16384

noncomputable section

namespace Cert.Align.Pieces

open Cert.KernelIdeal Cert.KernelIdeal.Gen Idealize.ShloMosaic Idealize.ShloMosaic.TcCoe Idealize.ShloMosaic.ValueIdx
open Idealize.SL.Sem

variable {F : FTy → Type} [FloatOps F]

/-- Row `k` of a block of 32 sentences, as the one-sentence array a trip of the loop loads. -/
def sRow (x2 : Vec F S32x37x1024 .bf16) (k : Fin 32) : Vec F S1x37x1024 .bf16 :=
  fun z => x2 (ix3 k (z 1 : Fin 37) (z 2 : Fin 1024))

/-- Row `k` of a block of 32 word-mask rows, as the one-row array a trip of the loop loads. -/
def mRow (x3 : Vec F S32x37 .f32) (k : Fin 32) : Vec F S1x37 .f32 :=
  fun z => x3 (ix2 k (z 1 : Fin 37))

/-- The output block as one function of its index: at `(k, n)`, the row computed from the image block, the region
    masks and row `k` of the sentence and word-mask blocks, read at column `n`. -/
def blockFun (x0 : Vec F S128x49x1024 .bf16) (x1 : Vec F S128x49 .f32) (x2 : Vec F S32x37x1024 .bf16)
    (x3 : Vec F S32x37 .f32) : Vec F S32x128 .f32 :=
  fun y => k0_pay1 x0 x1 (sRow x2 (y 0 : Fin 32)) (mRow x3 (y 0 : Fin 32)) (ix2 (0 : Fin 1) (y 1 : Fin 128))

/-- Every piece written by the trips before the `n`-th is a piece of some trip. -/
theorem mem_trips (𝒱 : Variants) (bd : Option 𝒱.V) (c : Dev nD) (i : grid0.Coords) (arg1 : Memref sig .tc .vmem S128x49x1024 .bf16) (harg1 : arg1.IsWhole) (arg2 : Memref sig .tc .vmem S128x49 .f32) (harg2 : arg2.IsWhole) (arg3 : Memref sig .tc .vmem S32x37x1024 .bf16) (harg3 : arg3.IsWhole) (arg4 : Memref sig .tc .vmem S32x37 .f32) (harg4 : arg4.IsWhole) (arg5 : Memref sig .tc .vmem S32x128 .f32) (harg5 : arg5.IsWhole)
    (v0 : Vec F S128x49x1024 .bf16) (v2 : Vec F S128x49 .f32) (X3 : BufTy.Contents (Elt F) arg3.view.ty)
    (X4 : BufTy.Contents (Elt F) arg4.view.ty) (p : View.Piece (Elt F) S32x128 .f32) :
    ∀ n : ℕ, p ∈ pb_k0_t1 (F := F) 𝒱 c bd i arg1 harg1 arg2 harg2 arg3 harg3 arg4 harg4 arg5 harg5 v0 v2 X3 X4 n →
      ∃ k : Fin k0_t1_loop.trips,
        p ∈ tripL_k0_t1 (F := F) 𝒱 c bd i arg1 harg1 arg2 harg2 arg3 harg3 arg4 harg4 arg5 harg5 v0 v2 X3 X4 k
  | 0, hp => by rw [pb_k0_t1.eq_1] at hp; exact absurd hp List.not_mem_nil
  | n + 1, hp => by
    rw [pb_k0_t1.eq_2] at hp
    unfold pb_k0_t1Step at hp
    by_cases h : n < k0_t1_loop.trips
    · rw [dif_pos h] at hp
      rcases List.mem_append.mp hp with h1 | h1
      · exact ⟨⟨n, h⟩, h1⟩
      · exact mem_trips 𝒱 bd c i arg1 harg1 arg2 harg2 arg3 harg3 arg4 harg4 arg5 harg5 v0 v2 X3 X4 p n h1
    · rw [dif_neg h] at hp
      exact mem_trips 𝒱 bd c i arg1 harg1 arg2 harg2 arg3 harg3 arg4 harg4 arg5 harg5 v0 v2 X3 X4 p n hp

/-- Trip `k` writes one piece: row `k` of the block, holding the row computed from what the trip loaded. -/
theorem trip_piece (𝒱 : Variants) (bd : Option 𝒱.V) (c : Dev nD) (i : grid0.Coords) (arg1 : Memref sig .tc .vmem S128x49x1024 .bf16) (harg1 : arg1.IsWhole) (arg2 : Memref sig .tc .vmem S128x49 .f32) (harg2 : arg2.IsWhole) (arg3 : Memref sig .tc .vmem S32x37x1024 .bf16) (harg3 : arg3.IsWhole) (arg4 : Memref sig .tc .vmem S32x37 .f32) (harg4 : arg4.IsWhole) (arg5 : Memref sig .tc .vmem S32x128 .f32) (harg5 : arg5.IsWhole)
    (v0 : Vec F S128x49x1024 .bf16) (v2 : Vec F S128x49 .f32) (X3 : BufTy.Contents (Elt F) arg3.view.ty)
    (X4 : BufTy.Contents (Elt F) arg4.view.ty) (k : Fin k0_t1_loop.trips) (p : View.Piece (Elt F) S32x128 .f32)
    (hp : p ∈ tripL_k0_t1 (F := F) 𝒱 c bd i arg1 harg1 arg2 harg2 arg3 harg3 arg4 harg4 arg5 harg5 v0 v2 X3 X4 k) :
    p = ⟨Rect.unit (s := S32x128) (k0_off3 k) S1x128.size (k0_off3_inb k),
          k0_pay1 v0 v2
            (View.readAt (Elt F) arg3.view (Rect.unit (s := S32x37x1024) (k0_off1 k) S1x37x1024.size (k0_off1_inb k)).toLoadRect X3)
            (View.readAt (Elt F) arg4.view (Rect.unit (s := S32x37) (k0_off2 k) S1x37.size (k0_off2_inb k)).toLoadRect X4)⟩ := by
  unfold tripL_k0_t1 trip_k0_t1 at hp
  dsimp only at hp
  exact List.mem_singleton.mp hp

/-- The zero offsets of a whole-buffer load, in the two spellings the body uses. -/
theorem zero3 : (![0, 0, 0] : Fin 3 → ℕ) = fun _ => 0 := by funext a; fin_cases a <;> rfl
theorem zero2 : (![0, 0] : Fin 2 → ℕ) = fun _ => 0 := by funext a; fin_cases a <;> rfl

/-- Trip `k` is one of at most 32. -/
theorem trip_lt (k : Fin k0_t1_loop.trips) : k.val < 32 := Nat.lt_of_lt_of_le k.isLt k0_t1_abs.2.1

/-- What trip `k` loads of the sentence block is its row `k`. -/
theorem load_sRow (arg3 : Memref sig .tc .vmem S32x37x1024 .bf16) (harg3 : arg3.IsWhole) (x2 : Vec F S32x37x1024 .bf16)
    (k : Fin k0_t1_loop.trips) :
    View.readAt (Elt F) arg3.view (Rect.unit (s := S32x37x1024) (k0_off1 k) S1x37x1024.size (k0_off1_inb k)).toLoadRect (harg3.unread x2)
      = sRow x2 ⟨k.val, trip_lt k⟩ := by
  rw [View.readAt_eq_ld, harg3.read_unread]
  funext z
  refine congrArg x2 (funext fun a => Fin.ext ?_)
  have e0 : (k0_off1 k) 0 = k.val := congrFun (k0_off1_eq k) 0
  have e1 : (k0_off1 k) 1 = 0 := congrFun (k0_off1_eq k) 1
  have e2 : (k0_off1 k) 2 = 0 := congrFun (k0_off1_eq k) 2
  have h0 : (z 0).val < 1 := (z 0).isLt
  match a with
  | ⟨0, _⟩ => show (k0_off1 k) 0 + 1 * (z 0).val = k.val; omega
  | ⟨1, _⟩ => show (k0_off1 k) 1 + 1 * (z 1).val = (z 1).val; omega
  | ⟨2, _⟩ => show (k0_off1 k) 2 + 1 * (z 2).val = (z 2).val; omega

/-- What trip `k` loads of the word-mask block is its row `k`. -/
theorem load_mRow (arg4 : Memref sig .tc .vmem S32x37 .f32) (harg4 : arg4.IsWhole) (x3 : Vec F S32x37 .f32)
    (k : Fin k0_t1_loop.trips) :
    View.readAt (Elt F) arg4.view (Rect.unit (s := S32x37) (k0_off2 k) S1x37.size (k0_off2_inb k)).toLoadRect (harg4.unread x3)
      = mRow x3 ⟨k.val, trip_lt k⟩ := by
  rw [View.readAt_eq_ld, harg4.read_unread]
  funext z
  refine congrArg x3 (funext fun a => Fin.ext ?_)
  have e0 : (k0_off2 k) 0 = k.val := congrFun (k0_off2_eq k) 0
  have e1 : (k0_off2 k) 1 = 0 := congrFun (k0_off2_eq k) 1
  have h0 : (z 0).val < 1 := (z 0).isLt
  match a with
  | ⟨0, _⟩ => show (k0_off2 k) 0 + 1 * (z 0).val = k.val; omega
  | ⟨1, _⟩ => show (k0_off2 k) 1 + 1 * (z 1).val = (z 1).val; omega

/-- The whole-buffer loads before the loop read the image block and the region masks as they are. -/
theorem load_im (arg1 : Memref sig .tc .vmem S128x49x1024 .bf16) (harg1 : arg1.IsWhole) (x0 : Vec F S128x49x1024 .bf16) :
    View.readAt (Elt F) arg1.view (Rect.unit (s := S128x49x1024) ![0, 0, 0] S128x49x1024.size inb_S128x49x1024_S128x49x1024_0_0_0).toLoadRect (harg1.unread x0)
      = x0 := by
  rw [View.readAt_eq_ld, harg1.read_unread]
  exact View.ld_unit_zero (S := S128x49x1024) zero3 _ x0
theorem load_mask (arg2 : Memref sig .tc .vmem S128x49 .f32) (harg2 : arg2.IsWhole) (x1 : Vec F S128x49 .f32) :
    View.readAt (Elt F) arg2.view (Rect.unit (s := S128x49) ![0, 0] S128x49.size inb_S128x49_S128x49_0_0).toLoadRect (harg2.unread x1)
      = x1 := by
  rw [View.readAt_eq_ld, harg2.read_unread]
  exact View.ld_unit_zero (S := S128x49) zero2 _ x1

/-- Row `k`'s rectangle places its index `(0, n)` at `(k, n)` of the block, and there the block function is the
    row computed from row `k` of the streamed blocks. -/
theorem blockFun_row (x0 : Vec F S128x49x1024 .bf16) (x1 : Vec F S128x49 .f32) (x2 : Vec F S32x37x1024 .bf16)
    (x3 : Vec F S32x37 .f32) (k : Fin k0_t1_loop.trips) (x : S1x128.Idx) :
    blockFun x0 x1 x2 x3 ((Rect.unit (s := S32x128) (k0_off3 k) S1x128.size (k0_off3_inb k)).emb x)
      = k0_pay1 x0 x1 (sRow x2 ⟨k.val, trip_lt k⟩) (mRow x3 ⟨k.val, trip_lt k⟩) x := by
  have e0 : (k0_off3 k) 0 = k.val := congrFun (k0_off3_eq k) 0
  have e1 : (k0_off3 k) 1 = 0 := congrFun (k0_off3_eq k) 1
  have h0 : (x 0).val < 1 := (x 0).isLt
  have r0 : (((Rect.unit (s := S32x128) (k0_off3 k) S1x128.size (k0_off3_inb k)).emb x) 0 : Fin 32) = ⟨k.val, trip_lt k⟩ := by
    refine Fin.ext ?_
    show (k0_off3 k) 0 + 1 * (x 0).val = k.val
    omega
  have r1 : ix2 (0 : Fin 1) (((Rect.unit (s := S32x128) (k0_off3 k) S1x128.size (k0_off3_inb k)).emb x) 1 : Fin 128) = x := by
    funext a
    match a with
    | ⟨0, _⟩ => exact Fin.ext (by show 0 = (x 0).val; omega)
    | ⟨1, _⟩ =>
      refine Fin.ext ?_
      show (k0_off3 k) 1 + 1 * (x 1).val = (x 1).val
      omega
  have hb : ∀ (y : S32x128.Idx) (kk : Fin 32) (xx : S1x128.Idx), (y 0 : Fin 32) = kk →
      ix2 (0 : Fin 1) (y 1 : Fin 128) = xx →
      blockFun x0 x1 x2 x3 y = k0_pay1 x0 x1 (sRow x2 kk) (mRow x3 kk) xx := by
    intro y kk xx h1 h2; subst h1; subst h2; rfl
  exact hb _ _ _ r0 r1

/-- THE BLOCK A POINT LEAVES: whatever memrefs the pipeline hands the body, after it has run on the input blocks
    `x0 … x3` the output block is the block function of them. -/
theorem out_eq (c : Dev nD) (i : grid0.Coords) (arg1 : Memref sig .tc .vmem S128x49x1024 .bf16) (harg1 : arg1.IsWhole) (arg2 : Memref sig .tc .vmem S128x49 .f32) (harg2 : arg2.IsWhole) (arg3 : Memref sig .tc .vmem S32x37x1024 .bf16) (harg3 : arg3.IsWhole) (arg4 : Memref sig .tc .vmem S32x37 .f32) (harg4 : arg4.IsWhole) (arg5 : Memref sig .tc .vmem S32x128 .f32) (harg5 : arg5.IsWhole)
    (x0 : Vec F S128x49x1024 .bf16) (x1 : Vec F S128x49 .f32) (x2 : Vec F S32x37x1024 .bf16) (x3 : Vec F S32x37 .f32) :
    out0_A_4 (F := F) c i arg1 harg1 arg2 harg2 arg3 harg3 arg4 harg4 arg5 harg5 x0 x1 x2 x3 = blockFun x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (blockFun x0 x1 x2 x3) _ ?_ y (cover0_A_4 c i arg1 harg1 arg2 harg2 arg3 harg3 arg4 harg4 arg5 harg5 x0 x1 x2 x3 y)
  intro p hp x
  have hL : (kernelRun0_A (F := F) c i arg1 harg1 arg2 harg2 arg3 harg3 arg4 harg4 arg5 harg5 x0 x1 x2 x3).1
      = pb_k0_t1 (F := F) Variants.none c none i arg1 harg1 arg2 harg2 arg3 harg3 arg4 harg4 arg5 harg5
          (View.readAt (Elt F) arg1.view (Rect.unit (s := S128x49x1024) ![0, 0, 0] S128x49x1024.size inb_S128x49x1024_S128x49x1024_0_0_0).toLoadRect (harg1.unread x0))
          (View.readAt (Elt F) arg2.view (Rect.unit (s := S128x49) ![0, 0] S128x49.size inb_S128x49_S128x49_0_0).toLoadRect (harg2.unread x1))
          (harg3.unread x2) (harg4.unread x3) k0_t1_loop.trips := by
    unfold kernelRun0_A
    rfl
  rw [hL] at hp
  obtain ⟨k, hk⟩ := mem_trips Variants.none none c i arg1 harg1 arg2 harg2 arg3 harg3 arg4 harg4 arg5 harg5 _ _ _ _ p _ hp
  have hpk := trip_piece Variants.none none c i arg1 harg1 arg2 harg2 arg3 harg3 arg4 harg4 arg5 harg5 _ _ _ _ k p hk
  subst hpk
  dsimp only
  rw [load_im, load_mask, load_sRow, load_mRow, blockFun_row]

end Cert.Align.Pieces

end
-- ==== Proof.KernelArray.lean ====
/-
  The kernel's result array before the final transposition.

  The grid has four points; point `t` is handed the whole image array and the whole region-mask array, sentences
  `32 t … 32 t + 31` and their word masks, and writes rows `32 t … 32 t + 31` of the 128 × 128 result. By the block
  lemma the block a point writes is the row computation applied to what it was handed, so it is the restriction to
  those rows of ONE function of the array index `(j, n)`: the row computed from the image array, the region masks
  and sentence `j` with its word masks, read at column `n`. The four row blocks tile the array, so after the region
  the array is that function.
-/
import proofs.«151405_j51453708206435_2_alg».proof.Proof.Pieces

set_option maxRecDepth 16384

noncomputable section

namespace Cert.Align.KernelArray

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- Sentence `j` of the sentence array, as a one-sentence array. -/
def sentence (a2 : S128x37x1024.Idx → Elt F .bf16) (j : Fin 128) : Vec F S1x37x1024 .bf16 :=
  fun z => a2 (ix3 j (z 1 : Fin 37) (z 2 : Fin 1024))

/-- The word masks of sentence `j`, as a one-row array. -/
def wordMask (a3 : S128x37.Idx → Elt F .f32) (j : Fin 128) : Vec F S1x37 .f32 :=
  fun z => a3 (ix2 j (z 1 : Fin 37))

/-- The result array as one function of its index `(j, n)`: the row computed for sentence `j`, at column `n`. -/
def outT (a0 : S128x49x1024.Idx → Elt F .bf16) (a1 : S128x49.Idx → Elt F .f32) (a2 : S128x37x1024.Idx → Elt F .bf16)
    (a3 : S128x37.Idx → Elt F .f32) : S128x128.Idx → Elt F .f32 :=
  fun y => k0_pay1 a0 a1 (sentence a2 (y 0 : Fin 128)) (wordMask a3 (y 0 : Fin 128)) (ix2 (0 : Fin 1) (y 1 : Fin 128))

/-- The row computation respects equality of everything it is given. -/
theorem pay_congr {v0 v0' : Vec F S128x49x1024 .bf16} {v2 v2' : Vec F S128x49 .f32} {v10 v10' : Vec F S1x37x1024 .bf16}
    {v13 v13' : Vec F S1x37 .f32} {x x' : S1x128.Idx} (h0 : v0 = v0') (h2 : v2 = v2') (h10 : v10 = v10') (h13 : v13 = v13')
    (hx : x = x') : k0_pay1 v0 v2 v10 v13 x = k0_pay1 v0' v2' v10' v13' x' := by
  subst h0; subst h2; subst h10; subst h13; subst hx; rfl

/-- The printed index maps, decided over the four points: the two resident windows sit at block zero, the two
    streamed windows move with the output's row block, and the output's row block is the point's number. -/
theorem idx_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = win0_4.index t (0 : Fin 2) ∧ win0_2.index t (1 : Fin 3) = 0 ∧ win0_2.index t (2 : Fin 3) = 0
    ∧ win0_3.index t (0 : Fin 2) = win0_4.index t (0 : Fin 2) ∧ win0_3.index t (1 : Fin 2) = 0
    ∧ win0_4.index t (0 : Fin 2) ≤ 3 ∧ win0_4.index t (1 : Fin 2) = 0 :=
  (by decide +kernel : ∀ t : Fin grid0.N, _)

/-- Every one of the four row blocks is some point's. -/
theorem idx_onto : ∀ q : Fin 4, ∃ t : Fin cfg0.N, win0_4.index t = ![q.val, 0] :=
  (by decide +kernel : ∀ q : Fin 4, ∃ t : Fin grid0.N, win0_4.index t = ![q.val, 0])

/-- WHAT POINT `t` WRITES BACK is block `t` of `outT` of the four arrays the region finds. -/
theorem flushed_eq (c : Dev nD) (t : Fin cfg0.N) :
    (dats m 0 c).flushed 4 t
      = ((cfg0.win 4).blk t).view.read (Elt F) (outT (V m c main_v20) (V m c main_v12) (V m c main_v21) (V m c main_v19)) := by
  show (cfg0.win 4).cut (grid0.coords t) ((dats m 0 c).after 4 t) = _
  rw [after0_4]
  unfold outsAt0
  rw [Pieces.out_eq]
  obtain ⟨a0, a1, a2, b0, b1, s0, s1, s2, w0, w1, o0, o1⟩ := idx_facts t
  funext j
  show Pieces.blockFun (iblk m c 0 t) (iblk m c 1 t) (iblk m c 2 t) (iblk m c 3 t) j
      = outT (V m c main_v20) (V m c main_v12) (V m c main_v21) (V m c main_v19) (((cfg0.win 4).blk t).view.emb j)
  have hj0 : (j 0).val < 32 := (j 0).isLt
  have hj1 : (j 1).val < 128 := (j 1).isLt
  refine pay_congr ?_ ?_ ?_ ?_ ?_
  · funext y
    show V m c main_v20 (((cfg0.win 0).blk t).view.emb y) = V m c main_v20 y
    refine congrArg _ (funext fun a => Fin.ext ?_)
    match a with
    | ⟨0, _⟩ => show win0_0.index t (0 : Fin 3) * 128 + 1 * (y 0).val = (y 0).val; omega
    | ⟨1, _⟩ => show win0_0.index t (1 : Fin 3) * 49 + 1 * (y 1).val = (y 1).val; omega
    | ⟨2, _⟩ => show win0_0.index t (2 : Fin 3) * 1024 + 1 * (y 2).val = (y 2).val; omega
  · funext y
    show V m c main_v12 (((cfg0.win 1).blk t).view.emb y) = V m c main_v12 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 49 + 1 * (y 1).val = (y 1).val; omega
  · funext z
    show V m c main_v21 (((cfg0.win 2).blk t).view.emb (ix3 (j 0 : Fin 32) (z 1 : Fin 37) (z 2 : Fin 1024)))
        = V m c main_v21 (ix3 ((((cfg0.win 4).blk t).view.emb j) 0 : Fin 128) (z 1 : Fin 37) (z 2 : Fin 1024))
    refine congrArg _ (funext fun a => Fin.ext ?_)
    match a with
    | ⟨0, _⟩ =>
      show win0_2.index t (0 : Fin 3) * 32 + 1 * (j 0).val = win0_4.index t (0 : Fin 2) * 32 + 1 * (j 0).val; omega
    | ⟨1, _⟩ => show win0_2.index t (1 : Fin 3) * 37 + 1 * (z 1).val = (z 1).val; omega
    | ⟨2, _⟩ => show win0_2.index t (2 : Fin 3) * 1024 + 1 * (z 2).val = (z 2).val; omega
  · funext z
    show V m c main_v19 (((cfg0.win 3).blk t).view.emb (ix2 (j 0 : Fin 32) (z 1 : Fin 37)))
        = V m c main_v19 (ix2 ((((cfg0.win 4).blk t).view.emb j) 0 : Fin 128) (z 1 : Fin 37))
    refine congrArg _ (funext fun a => Fin.ext ?_)
    match a with
    | ⟨0, _⟩ =>
      show win0_3.index t (0 : Fin 2) * 32 + 1 * (j 0).val = win0_4.index t (0 : Fin 2) * 32 + 1 * (j 0).val; omega
    | ⟨1, _⟩ => show win0_3.index t (1 : Fin 2) * 37 + 1 * (z 1).val = (z 1).val; omega
  · funext a
    match a with
    | ⟨0, _⟩ => rfl
    | ⟨1, _⟩ =>
      refine Fin.ext ?_
      show (j 1).val = win0_4.index t (1 : Fin 2) * 128 + 1 * (j 1).val; omega

/-- An index of the result array is in point `t`'s block iff each coordinate is in the block's range on its axis. -/
theorem mem_blk (t : Fin cfg0.N) (i : S128x128.Idx) :
    i ∈ ((cfg0.win 4).blk t).view.set
      ↔ ∀ a : Fin 2, win0_4.index t a * S32x128.size a ≤ (i a).val ∧ (i a).val < win0_4.index t a * S32x128.size a + S32x128.size a := by
  show i ∈ ((View.whole main_v22).slice (win0_4.rect t)).set ↔ _
  rw [View.set_slice_whole, Rect.mem_set_unit]
  exact Iff.rfl

/-- The four row blocks cover the array: row `j` is in the block of point `j / 32`. -/
theorem cover (i : S128x128.Idx) :
    ∃ t : Fin cfg0.N, (cfg0.win 4).flush t = true ∧ i ∈ ((cfg0.win 4).blk t).view.set := by
  have hi0 : (i 0).val < 128 := (i 0).isLt
  have hi1 : (i 1).val < 128 := (i 1).isLt
  obtain ⟨t, ht⟩ := idx_onto ⟨(i 0).val / 32, by omega⟩
  have q0 : win0_4.index t (0 : Fin 2) = (i 0).val / 32 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 32 ≤ (i 0).val ∧ (i 0).val < win0_4.index t (0 : Fin 2) * 32 + 32; omega
  | ⟨1, _⟩ =>
    show win0_4.index t (1 : Fin 2) * 128 ≤ (i 1).val ∧ (i 1).val < win0_4.index t (1 : Fin 2) * 128 + 128; omega

/-- THE ARRAY after the region: `outT` of the four arrays the region finds. -/
theorem final (c : Dev nD) :
    (dats m 0 c).arrAt 4 cfg0.N = outT (V m c main_v20) (V m c main_v12) (V m c main_v21) (V m c main_v19) :=
  (dats m 0 c).arrAt_eq_of_cover 4 _ (fun t _ => flushed_eq m c t) cover

end Cert.Align.KernelArray

end
-- ==== Proof.Spec.lean ====
/-
  The value both programs compute, written once over the four argument arrays.

  For image `i`, sentence `j`, region `r` (49 of them, the first of the 50 dropped) and word `w` (37 of them, the first
  and the last two of the 40 dropped) the alignment is the inner product over the 1024 features of region `r + 1` of
  image `i` and word `w + 1` of sentence `j`, kept where `r` is below the image's length less one and `w` below the
  sentence's length less three (both compared as signed 32-bit words) and replaced by zero elsewhere. The result at
  `(i, j)` adds two aggregations of that 49 × 37 table: the sum over the words of the maximum over the regions, and
  the sum over the regions of the maximum over the words, each maximum taken from minus infinity.

  On the extended reals a product with the number one is the factor itself and a product with zero is zero, for every
  factor, so multiplying by the two 0/1 masks and selecting zero where either mask fails are the same table: no
  finiteness of the inputs is used anywhere.
-/
import Idealize.ShloMosaic.PureOps.Ideal
import Idealize.ShloMosaic.PureOps.Ideal.Laws
import Idealize.ShloMosaic.Lib.ValueIdx

noncomputable section

open scoped BigOperators

namespace Cert.Align

open Idealize.ShloMosaic Idealize.ShloMosaic.ValueIdx

/-- Minus infinity, as the word both programs start their maxima from. -/
abbrev negInf : EReal := FloatOps.ofBits (F := Ideal) .f32 0xFF800000#32

/-- The two aggregations of a 49 × 37 table, added: the column maxima summed over the columns and the row maxima
    summed over the rows. -/
def core (a : Fin 49 → Fin 37 → EReal) : EReal :=
  (∑ w : Fin 37, (Finset.univ : Finset (Fin 49)).fold max negInf (fun r => a r w))
    + (∑ r : Fin 49, (Finset.univ : Finset (Fin 37)).fold max negInf (fun w => a r w))

/-- Tables equal entry by entry have equal aggregations. -/
theorem core_congr {a b : Fin 49 → Fin 37 → EReal} (h : ∀ r w, a r w = b r w) : core a = core b := by
  have e : a = b := funext fun r => funext fun w => h r w
  rw [e]

/-- The one-bit word "position `n` is below the length `len` shortened by `k`", the comparison signed. -/
def validBit (n : Nat) (len k : BitVec 32) : BitVec 1 :=
  IntOp.cmpi .slt (BitVec.ofNat 32 n) (IntOp.subi len k)

/-- Entry `(r, w)` of the masked alignment table of image `i` and sentence `j`: the inner product of region `r + 1`
    and word `w + 1`, times the region's 0/1 mask, times the word's 0/1 mask. -/
def entry (im : (⟨3, ![128, 50, 1024]⟩ : Shape).Idx → EReal) (s : (⟨3, ![128, 40, 1024]⟩ : Shape).Idx → EReal)
    (il sl : (⟨1, ![128]⟩ : Shape).Idx → BitVec 32) (i j : Fin 128) (r : Fin 49) (w : Fin 37) : EReal :=
  ((∑ d : Fin 1024, im (ix3 i (⟨1 + r.val, by have := r.isLt; omega⟩ : Fin 50) d)
        * s (ix3 j (⟨1 + w.val, by have := w.isLt; omega⟩ : Fin 40) d))
      * FloatOps.uitofp (F := Ideal) .f32 (validBit r.val (il (ix1 i)) 1#32))
    * FloatOps.uitofp (F := Ideal) .f32 (validBit w.val (sl (ix1 j)) 3#32)

/-- The result array: at `(i, j)` the aggregation of the masked alignment table of image `i` and sentence `j`. -/
def G (im : (⟨3, ![128, 50, 1024]⟩ : Shape).Idx → EReal) (s : (⟨3, ![128, 40, 1024]⟩ : Shape).Idx → EReal)
    (il sl : (⟨1, ![128]⟩ : Shape).Idx → BitVec 32) : (⟨2, ![128, 128]⟩ : Shape).Idx → EReal :=
  fun y => core (entry im s il sl (y 0) (y 1))

/-- A one-bit word turned into a float is one or zero. -/
theorem uitofp_one : FloatOps.uitofp (F := Ideal) .f32 (1#1 : BitVec 1) = (1 : EReal) := by
  show (((1#1 : BitVec 1).toNat : ℝ) : EReal) = 1
  simp
theorem uitofp_zero : FloatOps.uitofp (F := Ideal) .f32 (0#1 : BitVec 1) = (0 : EReal) := by
  show (((0#1 : BitVec 1).toNat : ℝ) : EReal) = 0
  simp

end Cert.Align

end
-- ==== Proof.Payload.lean ====
/-
  The kernel's arithmetic for one sentence, read at one image.

  The body flattens the 128 images' 49 regions into 6272 rows (row `i * 49 + r` is region `r` of image `i`),
  multiplies that 6272 × 1024 matrix by the transposed 37 × 1024 matrix of the sentence's words, contracting the
  1024 features, and views the 6272 × 37 product again as a 128 × 49 × 37 table. Each entry is then multiplied by
  the region's mask (a 128 × 49 array, repeated along the words) and by the word's mask (a row of 37, repeated
  along images and regions). Of the masked table it takes the maximum over the regions and sums it over the words,
  takes the maximum over the words and sums it over the regions, and adds the two.

  Every layout operation reads, at an index, the operand at the index with the same row-major position; a product
  into the zero accumulator is the plain sum of products over the contracted axis; a one-axis sum is the sum over
  that axis's coordinates and a one-axis maximum the fold of `max` over them, from the accumulator's value. Put
  together, the value at image `i` is the two aggregations of the table
  `(r, w) ↦ ((∑ d, im i r d * s w d) * imMask i r) * sMask w`.
-/
import proofs.«151405_j51453708206435_2_alg».proof.Proof.Gen.KernelIdeal.Skeleton
import proofs.«151405_j51453708206435_2_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.Align.Payload

open Cert.KernelIdeal Cert.KernelIdeal.Gen Idealize.ShloMosaic Idealize.ShloMosaic.ValueIdx

/-- Row `i * 49 + r` of the 6272-row matrix: region `r` of image `i`. -/
def row (i : Fin 128) (r : Fin 49) : Fin 6272 :=
  ⟨i.val * 49 + r.val, by have := i.isLt; have := r.isLt; omega⟩

/-! ## The layout operations at an index -/

section Layout
variable {α : Type}

/-- The 128 × 49 × 1024 array viewed as 6272 × 1024: row `i * 49 + r` is `(i, r)`. -/
theorem cast_rows (x : S128x49x1024.Idx → α) (h : S128x49x1024.ShapeCasts S6272x1024)
    (i : Fin 128) (r : Fin 49) (d : Fin 1024) :
    shapeCast S6272x1024 x h (ix2 (row i r) d) = x (ix3 i r d) :=
  shapeCast_apply x h _ _ (by
    rw [Shape.rowMajor_val_three, Shape.rowMajor_val_two]
    show (i.val * 49 + r.val) * 1024 + d.val = (i.val * 49 + r.val) * 1024 + d.val
    rfl)

/-- The 6272 × 37 product viewed as 128 × 49 × 37: `(i, r, w)` is row `i * 49 + r`, column `w`. -/
theorem cast_table (x : S6272x37.Idx → α) (h : S6272x37.ShapeCasts S128x49x37)
    (i : Fin 128) (r : Fin 49) (w : Fin 37) :
    shapeCast S128x49x37 x h (ix3 i r w) = x (ix2 (row i r) w) :=
  shapeCast_apply x h _ _ (by
    rw [Shape.rowMajor_val_three, Shape.rowMajor_val_two]
    show (i.val * 49 + r.val) * 37 + w.val = (i.val * 49 + r.val) * 37 + w.val
    rfl)

/-- A 128 × 49 array given a trailing unit axis. -/
theorem cast_col (x : S128x49.Idx → α) (h : S128x49.ShapeCasts S128x49x1)
    (i : Fin 128) (r : Fin 49) (u : Fin 1) :
    shapeCast S128x49x1 x h (ix3 i r u) = x (ix2 i r) :=
  shapeCast_apply x h _ _ (by
    have hu : u.val = 0 := by omega
    rw [Shape.rowMajor_val_three, Shape.rowMajor_val_two]
    show i.val * 49 + r.val = (i.val * 49 + r.val) * 1 + u.val
    rw [hu, Nat.mul_one, Nat.add_zero])

/-- A row of 37 given two leading unit axes. -/
theorem cast_lane (x : S37.Idx → α) (h : S37.ShapeCasts S1x1x37) (u u' : Fin 1) (w : Fin 37) :
    shapeCast S1x1x37 x h (ix3 u u' w) = x (ix1 w) :=
  shapeCast_apply x h _ _ (by
    have hu : u.val = 0 := by omega
    have hu' : u'.val = 0 := by omega
    rw [Shape.rowMajor_val_three, Shape.rowMajor_val_one]
    show w.val = (u.val * 1 + u'.val) * 37 + w.val
    omega)

/-- A vector of 128 given a trailing unit axis. -/
theorem cast_keep (x : S128.Idx → α) (h : S128.ShapeCasts S128x1) (i : Fin 128) (u : Fin 1) :
    shapeCast S128x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The trailing unit axis of a 128 × 1 array dropped. -/
theorem cast_drop (x : S128x1.Idx → α) (h : S128x1.ShapeCasts S128) (i : Fin 128) :
    shapeCast S128 x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The region mask repeated along the words. -/
theorem bcast_col (x : S128x49x1.Idx → α) (h : S128x49x1.Broadcasts S128x49x37)
    (i : Fin 128) (r : Fin 49) (w : Fin 37) :
    broadcastTo S128x49x37 x h (ix3 i r w) = x (ix3 i r (0 : Fin 1)) :=
  broadcastTo_apply x h _ _ fun a => match a with
    | ⟨0, _⟩ => rfl
    | ⟨1, _⟩ => rfl
    | ⟨2, _⟩ => rfl

/-- The word mask repeated along images and regions. -/
theorem bcast_lane (x : S1x1x37.Idx → α) (h : S1x1x37.Broadcasts S128x49x37)
    (i : Fin 128) (r : Fin 49) (w : Fin 37) :
    broadcastTo S128x49x37 x h (ix3 i r w) = x (ix3 (0 : Fin 1) (0 : Fin 1) w) :=
  broadcastTo_apply x h _ _ fun a => match a with
    | ⟨0, _⟩ => rfl
    | ⟨1, _⟩ => rfl
    | ⟨2, _⟩ => rfl

end Layout

/-! ## The product at a row and a column -/

section Product

theorem lhs_row (j : S6272x37.Idx) (q : dot_S6272x1024_S37x1024_S6272x37_1_1_0_0_n_n.contr.Idx) :
    (dot_S6272x1024_S37x1024_S6272x37_1_1_0_0_n_n.lhsIdx j q 0).val = (j 0).val := by
  unfold DotDims.lhsIdx
  rw [dif_neg (show ¬(0 : Fin S6272x1024.rank) ∈ dot_S6272x1024_S37x1024_S6272x37_1_1_0_0_n_n.lhsBatch by decide),
    dif_pos (show (0 : Fin S6272x1024.rank) ∈ dot_S6272x1024_S37x1024_S6272x37_1_1_0_0_n_n.lhsNonContracting by decide)]
  rfl

theorem lhs_feature (j : S6272x37.Idx) (q : dot_S6272x1024_S37x1024_S6272x37_1_1_0_0_n_n.contr.Idx) :
    (dot_S6272x1024_S37x1024_S6272x37_1_1_0_0_n_n.lhsIdx j q 1).val = (q ⟨0, by decide⟩).val :=
  dot_S6272x1024_S37x1024_S6272x37_1_1_0_0_n_n.lhsIdx_val_of_single rfl j q

theorem rhs_row (j : S6272x37.Idx) (q : dot_S6272x1024_S37x1024_S6272x37_1_1_0_0_n_n.contr.Idx) :
    (dot_S6272x1024_S37x1024_S6272x37_1_1_0_0_n_n.rhsIdx j q 0).val = (j 1).val := by
  unfold DotDims.rhsIdx
  rw [dif_neg (show ¬(0 : Fin S37x1024.rank) ∈ dot_S6272x1024_S37x1024_S6272x37_1_1_0_0_n_n.rhsBatch by decide),
    dif_pos (show (0 : Fin S37x1024.rank) ∈ dot_S6272x1024_S37x1024_S6272x37_1_1_0_0_n_n.rhsNonContracting by decide)]
  rfl

theorem rhs_feature (j : S6272x37.Idx) (q : dot_S6272x1024_S37x1024_S6272x37_1_1_0_0_n_n.contr.Idx) :
    (dot_S6272x1024_S37x1024_S6272x37_1_1_0_0_n_n.rhsIdx j q 1).val = (q ⟨0, by decide⟩).val :=
  dot_S6272x1024_S37x1024_S6272x37_1_1_0_0_n_n.rhsIdx_val_of_single rfl j q

/-- Into the zero accumulator, the product at row `p` and column `w` is the sum over the 1024 features of the
    first operand's row `p` times the second operand's row `w`. -/
theorem matmul_at (lhs : FVec Ideal S6272x1024 .bf16) (rhs : FVec Ideal S37x1024 .bf16) (p : Fin 6272) (w : Fin 37) :
    matmul (F := Ideal) dot_S6272x1024_S37x1024_S6272x37_1_1_0_0_n_n none lhs rhs
        (constant (F := Ideal) S6272x37 .f32 0x00000000#32) (ix2 p w)
      = ∑ d : Fin 1024, lhs (ix2 p d) * rhs (ix2 w d) := by
  refine (Ideal.matmul_constant_zero_apply dot_S6272x1024_S37x1024_S6272x37_1_1_0_0_n_n none lhs rhs (ix2 p w)).trans ?_
  rw [← Equiv.sum_comp (contrEquiv1 dot_S6272x1024_S37x1024_S6272x37_1_1_0_0_n_n 1024 rfl rfl).symm]
  refine Finset.sum_congr rfl fun k _ => ?_
  have hk := contrEquiv1_symm_val dot_S6272x1024_S37x1024_S6272x37_1_1_0_0_n_n 1024 rfl rfl k
  have el : dot_S6272x1024_S37x1024_S6272x37_1_1_0_0_n_n.lhsIdx (ix2 p w)
      ((contrEquiv1 dot_S6272x1024_S37x1024_S6272x37_1_1_0_0_n_n 1024 rfl rfl).symm k) = ix2 p k :=
    funext fun a => Fin.ext (by
      match a with
      | ⟨0, _⟩ => exact lhs_row _ _
      | ⟨1, _⟩ => exact (lhs_feature _ _).trans hk)
  have er : dot_S6272x1024_S37x1024_S6272x37_1_1_0_0_n_n.rhsIdx (ix2 p w)
      ((contrEquiv1 dot_S6272x1024_S37x1024_S6272x37_1_1_0_0_n_n 1024 rfl rfl).symm k) = ix2 w k :=
    funext fun a => Fin.ext (by
      match a with
      | ⟨0, _⟩ => exact rhs_row _ _
      | ⟨1, _⟩ => exact (rhs_feature _ _).trans hk)
  rw [el, er]

end Product

/-! ## The reductions at an index -/

section Reductions

/-- The maximum over the regions (axis 1 of the table), at image `i` and word `w`. -/
theorem max_regions (src : FVec Ideal S128x49x37 .f32) (h : S128x49x37.Reduces [1] S128x37)
    (hφ : FKind.Formats .f32) (hacc : 0xFF800000#32 = FKind.maximumf.neutral .f32 hφ) (i : Fin 128) (w : Fin 37) :
    multiReduction (F := Ideal) .maximumf [1] S128x37 src 0xFF800000#32 h hφ hacc (ix2 i w)
      = (Finset.univ : Finset (Fin 49)).fold max negInf (fun r => src (ix3 i r w)) := by
  refine (Ideal.multiReduction_maximumf_single src 0xFF800000#32 h hφ hacc (ix2 i w)).trans ?_
  have e : (src ∘ h.lift (ix2 i w)) = fun r : Fin 49 => src (ix3 i r w) :=
    funext fun r => congrArg src (funext fun a => Fin.ext (by
      match a with
      | ⟨0, _⟩ => rfl
      | ⟨1, _⟩ => rfl
      | ⟨2, _⟩ => rfl))
  exact congrArg (fun f => (Finset.univ : Finset (Fin 49)).fold max negInf f) e

/-- The maximum over the words (axis 2 of the table), at image `i` and region `r`. -/
theorem max_words (src : FVec Ideal S128x49x37 .f32) (h : S128x49x37.Reduces [2] S128x49)
    (hφ : FKind.Formats .f32) (hacc : 0xFF800000#32 = FKind.maximumf.neutral .f32 hφ) (i : Fin 128) (r : Fin 49) :
    multiReduction (F := Ideal) .maximumf [2] S128x49 src 0xFF800000#32 h hφ hacc (ix2 i r)
      = (Finset.univ : Finset (Fin 37)).fold max negInf (fun w => src (ix3 i r w)) := by
  refine (Ideal.multiReduction_maximumf_single src 0xFF800000#32 h hφ hacc (ix2 i r)).trans ?_
  have e : (src ∘ h.lift (ix2 i r)) = fun w : Fin 37 => src (ix3 i r w) :=
    funext fun w => congrArg src (funext fun a => Fin.ext (by
      match a with
      | ⟨0, _⟩ => rfl
      | ⟨1, _⟩ => rfl
      | ⟨2, _⟩ => rfl))
  exact congrArg (fun f => (Finset.univ : Finset (Fin 37)).fold max negInf f) e

/-- The sum over the words of a 128 × 37 array, at image `i`. -/
theorem sum_words (src : FVec Ideal S128x37 .f32) (h : S128x37.Reduces [1] S128)
    (hφ : FKind.Formats .f32) (hacc : 0x00000000#32 = FKind.add.neutral .f32 hφ) (i : Fin 128) :
    multiReduction (F := Ideal) .add [1] S128 src 0x00000000#32 h hφ hacc (ix1 i)
      = ∑ w : Fin 37, src (ix2 i w) := by
  refine (Ideal.multiReduction_add_single src 0x00000000#32 h hφ hacc (ix1 i)).trans ?_
  exact Finset.sum_congr rfl fun w _ => congrArg src (funext fun a => Fin.ext (by
    match a with
    | ⟨0, _⟩ => rfl
    | ⟨1, _⟩ => rfl))

/-- The sum over the regions of a 128 × 49 × 1 array, at image `i`. -/
theorem sum_regions (src : FVec Ideal S128x49x1 .f32) (h : S128x49x1.Reduces [1] S128x1)
    (hφ : FKind.Formats .f32) (hacc : 0x00000000#32 = FKind.add.neutral .f32 hφ) (i : Fin 128) (u : Fin 1) :
    multiReduction (F := Ideal) .add [1] S128x1 src 0x00000000#32 h hφ hacc (ix2 i u)
      = ∑ r : Fin 49, src (ix3 i r u) := by
  refine (Ideal.multiReduction_add_single src 0x00000000#32 h hφ hacc (ix2 i u)).trans ?_
  exact Finset.sum_congr rfl fun r _ => congrArg src (funext fun a => Fin.ext (by
    match a with
    | ⟨0, _⟩ => rfl
    | ⟨1, _⟩ => rfl
    | ⟨2, _⟩ => rfl))

end Reductions

/-! ## The three factors of a table entry -/

section Entry

/-- The product, viewed as a 128 × 49 × 37 table: at `(i, r, w)` the inner product over the features of region `r`
    of image `i` and word `w`. -/
theorem prod_at (x : FVec Ideal S128x49x1024 .bf16) (y : FVec Ideal S1x37x1024 .bf16)
    (c0 : S128x49x1024.ShapeCasts S128x49x1024) (c1 : S128x49x1024.ShapeCasts S6272x1024)
    (c2 : S1x37x1024.ShapeCasts S37x1024) (c3 : S6272x37.ShapeCasts S128x49x37)
    (i : Fin 128) (r : Fin 49) (w : Fin 37) :
    shapeCast S128x49x37
        (matmul (F := Ideal) dot_S6272x1024_S37x1024_S6272x37_1_1_0_0_n_n none
          (shapeCast S6272x1024 (shapeCast S128x49x1024 x c0) c1) (shapeCast S37x1024 y c2)
          (constant (F := Ideal) S6272x37 .f32 0x00000000#32)) c3 (ix3 i r w)
      = ∑ d : Fin 1024, x (ix3 i r d) * y (ix3 (0 : Fin 1) w d) := by
  refine (cast_table _ c3 i r w).trans ?_
  refine (matmul_at _ _ (row i r) w).trans ?_
  refine Finset.sum_congr rfl fun d _ => ?_
  exact congrArg₂ (· * ·) ((cast_rows _ c1 i r d).trans (congrFun (shapeCast_self x c0) _))
    (shapeCast_1ab_ab_apply y c2 w d)

/-- The region mask, repeated along the words: at `(i, r, w)` the mask of region `r` of image `i`. -/
theorem region_mask_at (x : FVec Ideal S128x49 .f32) (c4 : S128x49.ShapeCasts S128x49)
    (c5 : S128x49.ShapeCasts S128x49x1) (b0 : S128x49x1.Broadcasts S128x49x37)
    (i : Fin 128) (r : Fin 49) (w : Fin 37) :
    broadcastTo S128x49x37 (shapeCast S128x49x1 (shapeCast S128x49 x c4) c5) b0 (ix3 i r w) = x (ix2 i r) :=
  (bcast_col _ b0 i r w).trans ((cast_col _ c5 i r (0 : Fin 1)).trans (congrFun (shapeCast_self x c4) _))

/-- The word mask, repeated along images and regions: at `(i, r, w)` the mask of word `w`. -/
theorem word_mask_at (x : FVec Ideal S1x37 .f32) (c6 : S1x37.ShapeCasts S37) (c7 : S37.ShapeCasts S1x1x37)
    (b1 : S1x1x37.Broadcasts S128x49x37) (i : Fin 128) (r : Fin 49) (w : Fin 37) :
    broadcastTo S128x49x37 (shapeCast S1x1x37 (shapeCast S37 x c6) c7) b1 (ix3 i r w) = x (ix2 (0 : Fin 1) w) :=
  (bcast_lane _ b1 i r w).trans ((cast_lane _ c7 (0 : Fin 1) (0 : Fin 1) w).trans (shapeCast_1a_a_apply x c6 w))

end Entry

/-! ## The payload at an image -/

/-- The kernel's arithmetic for one sentence, at image `i`: the two aggregations of the masked alignment table. -/
theorem pay_apply (v0 : Vec Ideal S128x49x1024 .bf16) (v2 : Vec Ideal S128x49 .f32)
    (v10 : Vec Ideal S1x37x1024 .bf16) (v13 : Vec Ideal S1x37 .f32) (i : Fin 128) :
    k0_pay1 (F := Ideal) v0 v2 v10 v13 (ix2 (0 : Fin 1) i)
      = Cert.Align.core (fun r w =>
          ((∑ d : Fin 1024, v0 (ix3 i r d) * v10 (ix3 (0 : Fin 1) w d)) * v2 (ix2 i r)) * v13 (ix2 (0 : Fin 1) w)) := by
  unfold k0_pay1
  refine (shapeCast_a_1a_apply _ _ (0 : Fin 1) i).trans ?_
  refine (cast_drop _ _ i).trans ?_
  refine (addf_apply _ _ _).trans ?_
  unfold Cert.Align.core
  refine congrArg₂ (· + ·) ?_ ?_
  · -- the maxima over the regions, summed over the words
    refine (cast_keep _ _ i (0 : Fin 1)).trans ?_
    refine (sum_words _ _ _ _ i).trans ?_
    refine Finset.sum_congr rfl fun w _ => ?_
    refine (max_regions _ _ _ _ i w).trans ?_
    refine congrArg (fun f => (Finset.univ : Finset (Fin 49)).fold max negInf f) (funext fun r => ?_)
    exact (mulf_apply _ _ _).trans (congrArg₂ (· * ·)
      ((mulf_apply _ _ _).trans (congrArg₂ (· * ·) (prod_at v0 v10 _ _ _ _ i r w) (region_mask_at v2 _ _ _ i r w)))
      (word_mask_at v13 _ _ _ i r w))
  · -- the maxima over the words, summed over the regions
    refine (sum_regions _ _ _ _ i (0 : Fin 1)).trans ?_
    refine Finset.sum_congr rfl fun r _ => ?_
    refine (cast_col _ _ i r (0 : Fin 1)).trans ?_
    refine (max_words _ _ _ _ i r).trans ?_
    refine congrArg (fun f => (Finset.univ : Finset (Fin 37)).fold max negInf f) (funext fun w => ?_)
    exact (mulf_apply _ _ _).trans (congrArg₂ (· * ·)
      ((mulf_apply _ _ _).trans (congrArg₂ (· * ·) (prod_at v0 v10 _ _ _ _ i r w) (region_mask_at v2 _ _ _ i r w)))
      (word_mask_at v13 _ _ _ i r w))

end Cert.Align.Payload

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.KernelHost.lean ====
/-
  The four arrays the region is launched on, read at an index in terms of the program's arguments, and the region's
  result in terms of them.

  Before the region the host program drops region 0 of every image and word 0 and the last two words of every
  sentence (the change of float format that follows is the identity on the extended reals), and builds the two masks:
  the word "position below the shortened length", compared signed, turned into the float one or zero. Row `j`,
  column `i` of the region's result is therefore the aggregation of the masked alignment table of image `i` and
  sentence `j`: the specification with its two indices exchanged, which the transposition after the region undoes.
-/
import proofs.«151405_j51453708206435_2_alg».proof.Proof.KernelArray
import proofs.«151405_j51453708206435_2_alg».proof.Proof.Payload
import proofs.«151405_j51453708206435_2_alg».proof.Proof.LibHostRead
import Idealize.ShloMosaic.Lib.StableHlo.Run

set_option maxRecDepth 16384

noncomputable section

namespace Cert.Align.KernelHost

open Cert.KernelIdeal Cert.KernelIdeal.Gen Idealize.ShloMosaic Idealize.ShloMosaic.TcCoe Idealize.ShloMosaic.ValueIdx
open Idealize.SL.Sem Idealize.ShloMosaic.StableHlo Cert.LibHostRead

variable (m : (ℓ : Loc nD τ sig) → Buf (Elt Ideal) ℓ)

/-- The four arrays the region is launched on, as arrays of extended reals: the images without region 0, the region
    masks, the sentences without word 0 and the last two words, the word masks. -/
def imA (c : Dev nD) : Vec Ideal S128x49x1024 .bf16 := V m c main_v20
def rmA (c : Dev nD) : Vec Ideal S128x49 .f32 := V m c main_v12
def sA (c : Dev nD) : Vec Ideal S128x37x1024 .bf16 := V m c main_v21
def wmA (c : Dev nD) : Vec Ideal S128x37 .f32 := V m c main_v19

/-- The image array the region finds: region `r` of it is region `r + 1` of the argument. -/
theorem im_apply (c : Dev nD) (i : Fin 128) (r : Fin 49) (d : Fin 1024) :
    imA m c (ix3 i r d)
      = m ((c : Thread nD τ).loc main_arg0) (ix3 i (⟨1 + r.val, by have := r.isLt; omega⟩ : Fin 50) d) := by
  have e : (V m c main_v20 : S128x49x1024.Idx → Elt Ideal .bf16)
      = truncf (F := Ideal) .bf16 (extractStridedSlice S128x49x1024 ![0, 1, 0] (m ((c : Thread nD τ).loc main_arg0)) slices_S128x50x1024_S128x49x1024_0_1_0) bitsLt_bf16_f32 := by
    show StableHlo.after hostOps0 (fun b => m (c, b)) (Proc.devRef .tc main_v20) = _
    after_results
  unfold imA
  rw [e]
  show extractStridedSlice S128x49x1024 ![0, 1, 0] (m ((c : Thread nD τ).loc main_arg0)) slices_S128x50x1024_S128x49x1024_0_1_0 (ix3 i r d) = _
  exact extractStridedSlice_apply (s := S128x50x1024) (t := S128x49x1024) ![0, 1, 0] (m ((c : Thread nD τ).loc main_arg0))
    slices_S128x50x1024_S128x49x1024_0_1_0 (ix3 i r d) (ix3 i (⟨1 + r.val, by have := r.isLt; omega⟩ : Fin 50) d) (fun a => match a with
    | ⟨0, _⟩ => by show i.val = 0 + i.val; omega
    | ⟨1, _⟩ => by show 1 + r.val = 1 + r.val; rfl
    | ⟨2, _⟩ => by show d.val = 0 + d.val; omega)

/-- The sentence array the region finds: word `w` of it is word `w + 1` of the argument. -/
theorem s_apply (c : Dev nD) (j : Fin 128) (w : Fin 37) (d : Fin 1024) :
    sA m c (ix3 j w d)
      = m ((c : Thread nD τ).loc main_arg1) (ix3 j (⟨1 + w.val, by have := w.isLt; omega⟩ : Fin 40) d) := by
  have e : (V m c main_v21 : S128x37x1024.Idx → Elt Ideal .bf16)
      = truncf (F := Ideal) .bf16 (extractStridedSlice S128x37x1024 ![0, 1, 0] (m ((c : Thread nD τ).loc main_arg1)) slices_S128x40x1024_S128x37x1024_0_1_0) bitsLt_bf16_f32 := by
    show StableHlo.after hostOps0 (fun b => m (c, b)) (Proc.devRef .tc main_v21) = _
    after_results
  unfold sA
  rw [e]
  show extractStridedSlice S128x37x1024 ![0, 1, 0] (m ((c : Thread nD τ).loc main_arg1)) slices_S128x40x1024_S128x37x1024_0_1_0 (ix3 j w d) = _
  exact extractStridedSlice_apply (s := S128x40x1024) (t := S128x37x1024) ![0, 1, 0] (m ((c : Thread nD τ).loc main_arg1))
    slices_S128x40x1024_S128x37x1024_0_1_0 (ix3 j w d) (ix3 j (⟨1 + w.val, by have := w.isLt; omega⟩ : Fin 40) d) (fun a => match a with
    | ⟨0, _⟩ => by show j.val = 0 + j.val; omega
    | ⟨1, _⟩ => by show 1 + w.val = 1 + w.val; rfl
    | ⟨2, _⟩ => by show d.val = 0 + d.val; omega)

/-- The region-mask array the region finds: at `(i, r)` the float of the word "`r` is below the length of image `i`
    less one". -/
theorem regionMask_apply (c : Dev nD) (i : Fin 128) (r : Fin 49) :
    rmA m c (ix2 i r)
      = FloatOps.uitofp (F := Ideal) .f32 (Cert.Align.validBit r.val (m ((c : Thread nD τ).loc main_arg2) (ix1 i)) 1#32) := by
  have e : (V m c main_v12 : S128x49.Idx → Elt Ideal .f32)
      = uitofp (F := Ideal) .f32 (cmpi .slt
          (broadcastInDim S128x49 ![0, 1] bcast_S1x49_S128x49_0_1 (broadcastInDim S1x49 ![1] bcast_S49_S1x49_1 (iotaInDim S49 32 0)))
          (broadcastInDim S128x49 ![0, 1] bcast_S128x1_S128x49_0_1 (broadcastInDim S128x1 ![0] bcast_S128_S128x1_0
            (subi (m ((c : Thread nD τ).loc main_arg2)) (broadcastInDim S128 ![] bcast_S_S128 (constantI S_ 32 1#32)))))) := by
    show StableHlo.after hostOps0 (fun b => m (c, b)) (Proc.devRef .tc main_v12) = _
    after_results
  unfold rmA
  rw [e]
  show FloatOps.uitofp (F := Ideal) .f32 (IntOp.cmpi .slt
      (broadcastInDim S128x49 ![0, 1] bcast_S1x49_S128x49_0_1 (broadcastInDim S1x49 ![1] bcast_S49_S1x49_1 (iotaInDim S49 32 0)) (ix2 i r))
      (broadcastInDim S128x49 ![0, 1] bcast_S128x1_S128x49_0_1 (broadcastInDim S128x1 ![0] bcast_S128_S128x1_0
            (subi (m ((c : Thread nD τ).loc main_arg2)) (broadcastInDim S128 ![] bcast_S_S128 (constantI S_ 32 1#32)))) (ix2 i r))) = _
  rw [bid_1b_ab_apply, bid_b_1b_apply, bid_a1_ab_apply, bid_a_a1_apply]
  show FloatOps.uitofp (F := Ideal) .f32 (IntOp.cmpi .slt (BitVec.ofNat 32 r.val)
      (IntOp.subi (m ((c : Thread nD τ).loc main_arg2) (ix1 i)) (broadcastInDim S128 ![] bcast_S_S128 (constantI S_ 32 1#32) (ix1 i)))) = _
  rw [bid_scalar_apply]
  rfl

/-- The word-mask array the region finds: at `(j, w)` the float of the word "`w` is below the length of sentence `j`
    less three". -/
theorem wordMask_apply (c : Dev nD) (j : Fin 128) (w : Fin 37) :
    wmA m c (ix2 j w)
      = FloatOps.uitofp (F := Ideal) .f32 (Cert.Align.validBit w.val (m ((c : Thread nD τ).loc main_arg3) (ix1 j)) 3#32) := by
  have e : (V m c main_v19 : S128x37.Idx → Elt Ideal .f32)
      = uitofp (F := Ideal) .f32 (cmpi .slt
          (broadcastInDim S128x37 ![0, 1] bcast_S1x37_S128x37_0_1 (broadcastInDim S1x37 ![1] bcast_S37_S1x37_1 (iotaInDim S37 32 0)))
          (broadcastInDim S128x37 ![0, 1] bcast_S128x1_S128x37_0_1 (broadcastInDim S128x1 ![0] bcast_S128_S128x1_0
            (subi (m ((c : Thread nD τ).loc main_arg3)) (broadcastInDim S128 ![] bcast_S_S128 (constantI S_ 32 3#32)))))) := by
    show StableHlo.after hostOps0 (fun b => m (c, b)) (Proc.devRef .tc main_v19) = _
    after_results
  unfold wmA
  rw [e]
  show FloatOps.uitofp (F := Ideal) .f32 (IntOp.cmpi .slt
      (broadcastInDim S128x37 ![0, 1] bcast_S1x37_S128x37_0_1 (broadcastInDim S1x37 ![1] bcast_S37_S1x37_1 (iotaInDim S37 32 0)) (ix2 j w))
      (broadcastInDim S128x37 ![0, 1] bcast_S128x1_S128x37_0_1 (broadcastInDim S128x1 ![0] bcast_S128_S128x1_0
            (subi (m ((c : Thread nD τ).loc main_arg3)) (broadcastInDim S128 ![] bcast_S_S128 (constantI S_ 32 3#32)))) (ix2 j w))) = _
  rw [bid_1b_ab_apply, bid_b_1b_apply, bid_a1_ab_apply, bid_a_a1_apply]
  show FloatOps.uitofp (F := Ideal) .f32 (IntOp.cmpi .slt (BitVec.ofNat 32 w.val)
      (IntOp.subi (m ((c : Thread nD τ).loc main_arg3) (ix1 j)) (broadcastInDim S128 ![] bcast_S_S128 (constantI S_ 32 3#32) (ix1 j)))) = _
  rw [bid_scalar_apply]
  rfl

/-- THE REGION'S RESULT at `(j, i)` is the specification at `(i, j)`. -/
theorem outT_apply (c : Dev nD) (i j : Fin 128) :
    KernelArray.outT (imA m c) (rmA m c) (sA m c) (wmA m c) (ix2 j i)
      = Cert.Align.G (m ((c : Thread nD τ).loc main_arg0)) (m ((c : Thread nD τ).loc main_arg1))
          (m ((c : Thread nD τ).loc main_arg2)) (m ((c : Thread nD τ).loc main_arg3)) (ix2 i j) := by
  show k0_pay1 (F := Ideal) (imA m c) (rmA m c) (KernelArray.sentence (sA m c) j)
      (KernelArray.wordMask (wmA m c) j) (ix2 (0 : Fin 1) i) = _
  rw [Cert.Align.Payload.pay_apply]
  show Cert.Align.core _ = Cert.Align.core (Cert.Align.entry _ _ _ _ i j)
  refine Cert.Align.core_congr fun r w => ?_
  show ((∑ d : Fin 1024, imA m c (ix3 i r d) * sA m c (ix3 j w d)) * rmA m c (ix2 i r)) * wmA m c (ix2 j w) = _
  rw [regionMask_apply, wordMask_apply]
  unfold Cert.Align.entry
  refine congrArg (· * _) (congrArg (· * _) (Finset.sum_congr rfl fun d _ => ?_))
  rw [im_apply, s_apply]

/-- The array the region leaves, over the four named arrays. -/
theorem final (c : Dev nD) :
    (dats m 0 c).arrAt 4 cfg0.N = KernelArray.outT (imA m c) (rmA m c) (sA m c) (wmA m c) :=
  KernelArray.final m c

end Cert.Align.KernelHost

end
-- ==== Proof.KernelRun.lean ====
/-
  The idealized kernel program's run, read: it ends with its result array at the specification of its arguments.

  After the region the host program transposes the region's 128 × 128 array. The region's array at `(j, i)` is the
  specification at `(i, j)`, so the transposed array is the specification itself; the four argument arrays are never
  written.
-/
import proofs.«151405_j51453708206435_2_alg».proof.Proof.KernelHost
import Idealize.ShloMosaic.Lib.ValueLayout

set_option maxRecDepth 16384

noncomputable section

namespace Cert.Align.KernelRun

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The program's result buffer after the lines that follow the region: the specification of the arguments. -/
theorem result_eq (c : Dev nD) :
    Pipeline.afterTail₀ cfgs (dats m) 0 (V0 m) [hostOps1] c main_v23
      = Cert.Align.G (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v23) = _
  after_results
  have hw : Pipeline.withArrays (cfgs 0).spec c (V0 m c) (fun w => (dats m 0 c).arrAt w (cfgs 0).N) (Proc.devRef .tc main_v22)
      = (dats m 0 c).arrAt 4 cfg0.N :=
    Pipeline.withArrays_arr spec0 launch0.win.arr_inj c _ _ 4
  rw [hw, KernelHost.final]
  funext y
  obtain ⟨i, j, rfl⟩ : ∃ (i j : Fin 128), y = ix2 i j := ⟨y 0, y 1, eq_ix2 y⟩
  rw [transpose_ix2_apply]
  exact KernelHost.outT_apply m c i j

/-- Every weakly fair execution of the idealized kernel program terminates with its result at the specification of
    the arguments and the arguments unchanged. -/
theorem run : θ_run defs (onTc (τ := τ) (main (F := Ideal))) ⟨m, fun _ => 0, ρ⟩ fun r => ∀ c : Dev nD,
      r.2.mem ((c.tc : Thread nD τ).loc main_v23)
        = Cert.Align.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Align.KernelRun

end
-- ==== Proof.RefG.lean ====
/-
  The reference program's result is the specified array.

  The reference builds, for every image `i` and sentence `j`, a 49 × 37 table: the inner product over the 1024 features
  of word `w + 1` of the sentence with region `r + 1` of the image, replaced by zero where region `r` is not below the
  image's length less one or word `w` is not below the sentence's length less three (signed comparisons). It then adds
  the sum over the words of the maximum over the regions and the sum over the regions of the maximum over the words,
  every maximum taken from minus infinity and every sum from zero.

  Three observations join this to the specification. A signed "greater or equal" bit is the complement of the signed
  "less than" bit of the same operands, so the reference's two rejection masks are the complements of the
  specification's two validity bits. Selecting zero where either rejection bit is set equals multiplying by both
  validity bits turned into the numbers one and zero: on the extended reals a product with one is the other factor
  and a product with zero is zero, whatever the other factor, so no finiteness is needed. And the inner product with
  its two factors exchanged is the same sum, term by term, by commutativity of the product.
-/
import proofs.«151405_j51453708206435_2_alg».proof.Proof.Gen.ReferenceIdeal.Read
import proofs.«151405_j51453708206435_2_alg».proof.Proof.Spec
import Idealize.ShloMosaic.PureOps.Reduce
import Idealize.ShloMosaic.PureOps.Ideal.Laws
import Idealize.ShloMosaic.Lib.ValueIdx

noncomputable section

open scoped BigOperators

namespace Cert.Align.RefG

open Cert.ReferenceIdeal Cert.ReferenceIdeal.Gen Cert.ReferenceIdeal.Read Idealize.ShloMosaic Idealize.ShloMosaic.ValueIdx

/-! ## One-bit words -/

/-- For signed 32-bit words, `a ≥ b` holds exactly when `a < b` fails: the one comparison bit is the complement of
    the other. -/
theorem sge_eq_not_slt (a b : BitVec 32) : IntOp.cmpi .sge a b = ~~~ IntOp.cmpi .slt a b := by
  show BitVec.ofBool (b.sle a) = ~~~ BitVec.ofBool (a.slt b)
  rw [BitVec.sle_eq_not_slt]
  cases a.slt b <;> rfl

/-- Choosing zero when either of two complemented bits is set, and `d` otherwise, is `d` times the two bits read as
    the numbers one and zero. The four cases: both bits one give `d · 1 · 1 = d`; a zero bit gives a zero factor, and
    a product with zero is zero for every extended real `d`. -/
theorem select_masks (p q : BitVec 1) (d : EReal) :
    Scalar.select (IntOp.ori (~~~ p) (~~~ q)) (0 : EReal) d
      = (d * FloatOps.uitofp (F := Ideal) .f32 p) * FloatOps.uitofp (F := Ideal) .f32 q := by
  rcases BitVec.eq_zero_or_eq_one p with rfl | rfl <;> rcases BitVec.eq_zero_or_eq_one q with rfl | rfl
  · rw [show IntOp.ori (~~~ (0#1)) (~~~ (0#1)) = 1#1 from by decide, select_one, Cert.Align.uitofp_zero, mul_zero]
  · rw [show IntOp.ori (~~~ (0#1)) (~~~ (1#1)) = 1#1 from by decide, select_one, Cert.Align.uitofp_zero, mul_zero, zero_mul]
  · rw [show IntOp.ori (~~~ (1#1)) (~~~ (0#1)) = 1#1 from by decide, select_one, Cert.Align.uitofp_zero, mul_zero]
  · rw [show IntOp.ori (~~~ (1#1)) (~~~ (1#1)) = 0#1 from by decide, select_zero, Cert.Align.uitofp_one, mul_one, mul_one]

/-! ## The masked table, entry by entry -/

/-- The region mask at `(i, j, r, w)` depends on `i` and `r` only: position `r` compared, signed, with the length of
    image `i` less one. -/
theorem mask_region (x2 : (⟨S128, .i32⟩ : BufTy).Contents (Elt Ideal)) (i j : Fin 128) (r : Fin 49) (w : Fin 37) :
    val_main_v22 (F := Ideal) x2 (ix4 i j r w)
      = IntOp.cmpi .sge (BitVec.ofNat 32 r.val) (IntOp.subi (x2 (ix1 i)) 1#32) := by
  rw [val_main_v22_apply, val_main_v20_apply, val_main_v13_apply, val_main_v11_apply, val_main_v9_apply, val_main_v8_apply,
    val_main_v12_apply, val_main_v10_apply, val_main_v3_apply, val_main_v2_apply, val_main_c_apply]
  have e : idx_main_v10 (idx_main_v12 (idx_main_v20 (idx_main_v22 (ix4 i j r w)))) = ix1 i :=
    funext fun a => Fin.ext (by match a with | ⟨0, _⟩ => rfl)
  rw [e]

/-- The word mask at `(i, j, r, w)` depends on `j` and `w` only: position `w` compared, signed, with the length of
    sentence `j` less three. -/
theorem mask_word (x3 : (⟨S128, .i32⟩ : BufTy).Contents (Elt Ideal)) (i j : Fin 128) (r : Fin 49) (w : Fin 37) :
    val_main_v23 (F := Ideal) x3 (ix4 i j r w)
      = IntOp.cmpi .sge (BitVec.ofNat 32 w.val) (IntOp.subi (x3 (ix1 j)) 3#32) := by
  rw [val_main_v23_apply, val_main_v21_apply, val_main_v19_apply, val_main_v17_apply, val_main_v15_apply, val_main_v14_apply,
    val_main_v18_apply, val_main_v16_apply, val_main_v5_apply, val_main_v4_apply, val_main_c_0_apply]
  have e : idx_main_v16 (idx_main_v18 (idx_main_v21 (idx_main_v23 (ix4 i j r w)))) = ix1 j :=
    funext fun a => Fin.ext (by match a with | ⟨0, _⟩ => rfl)
  rw [e]

/-- The value written where a mask rejects is the number zero. -/
theorem fill_zero (i j : Fin 128) (r : Fin 49) (w : Fin 37) :
    val_main_call0_v1 (F := Ideal) (ix4 i j r w) = (0 : EReal) := by
  rw [val_main_call0_v1_apply, val_main_call0_v0_apply, val_main_cst_apply]
  exact Ideal.ofBits_zero_f32

/-- The unmasked alignment at `(i, j, r, w)`: the contraction is taken sentence first and the result transposed to
    `(i, j, r, w)`; exchanging the two factors of every term gives the inner product of region `r + 1` of image `i`
    with word `w + 1` of sentence `j`. -/
theorem dot_entry (x0 : (⟨S128x50x1024, .f32⟩ : BufTy).Contents (Elt Ideal)) (x1 : (⟨S128x40x1024, .f32⟩ : BufTy).Contents (Elt Ideal))
    (i j : Fin 128) (r : Fin 49) (w : Fin 37) :
    val_main_v7 (F := Ideal) x0 x1 (ix4 i j r w)
      = ∑ d : Fin 1024, x0 (ix3 i (⟨1 + r.val, by have := r.isLt; omega⟩ : Fin 50) d)
          * x1 (ix3 j (⟨1 + w.val, by have := w.isLt; omega⟩ : Fin 40) d) := by
  rw [val_main_v7_apply, val_main_v6_apply]
  refine Finset.sum_congr rfl fun d _ => ?_
  rw [val_main_v1_apply, val_main_v0_apply, mul_comm]
  have e0 : idx_main_v0 (ridx_main_v6 (idx_main_v7 (ix4 i j r w)) d) = ix3 i (⟨1 + r.val, by have := r.isLt; omega⟩ : Fin 50) d :=
    funext fun a => Fin.ext (by match a with | ⟨0, _⟩ => rfl | ⟨1, _⟩ => rfl | ⟨2, _⟩ => rfl)
  have e1 : idx_main_v1 (lidx_main_v6 (idx_main_v7 (ix4 i j r w)) d) = ix3 j (⟨1 + w.val, by have := w.isLt; omega⟩ : Fin 40) d :=
    funext fun a => Fin.ext (by match a with | ⟨0, _⟩ => rfl | ⟨1, _⟩ => rfl | ⟨2, _⟩ => rfl)
  rw [e0, e1]

/-- Entry `(r, w)` of the reference's masked table of image `i` and sentence `j` is the specification's entry: the
    two rejection bits are the complements of the two validity bits, and selecting zero on either is multiplying by
    both. -/
theorem table_entry (x0 : (⟨S128x50x1024, .f32⟩ : BufTy).Contents (Elt Ideal)) (x1 : (⟨S128x40x1024, .f32⟩ : BufTy).Contents (Elt Ideal))
    (x2 x3 : (⟨S128, .i32⟩ : BufTy).Contents (Elt Ideal)) (i j : Fin 128) (r : Fin 49) (w : Fin 37) :
    val_main_v25 (F := Ideal) x0 x1 x2 x3 (ix4 i j r w) = Cert.Align.entry x0 x1 x2 x3 i j r w := by
  rw [val_main_v25_apply, val_main_v24_apply, mask_region, mask_word, fill_zero, dot_entry, sge_eq_not_slt, sge_eq_not_slt,
    select_masks]
  rfl

/-! ## The two maxima, read at an index

A reduction by a commutative, associative operation over one axis is, at each index of the result, the fold of the
operation from the initial value over that axis's coordinates, the other coordinates held fixed. -/

/-- The maximum over the regions at `(i, j, w)`: the fold of `max` from minus infinity over `r` of the table's
    entries `(i, j, r, w)`. -/
theorem max_over_regions (x0 : (⟨S128x50x1024, .f32⟩ : BufTy).Contents (Elt Ideal)) (x1 : (⟨S128x40x1024, .f32⟩ : BufTy).Contents (Elt Ideal))
    (x2 x3 : (⟨S128, .i32⟩ : BufTy).Contents (Elt Ideal)) (i j : Fin 128) (w : Fin 37) :
    val_main_v26 (F := Ideal) x0 x1 x2 x3 (ix3 i j w)
      = (Finset.univ : Finset (Fin 49)).fold max Cert.Align.negInf
          (fun r => val_main_v25 (F := Ideal) x0 x1 x2 x3 (ix4 i j r w)) := by
  unfold val_main_v26
  generalize val_main_v25 (F := Ideal) x0 x1 x2 x3 = T
  have h : S128x128x49x37.Reduces [2] S128x128x37 := by decide
  refine (Host.reduce_eq_fold_single (FloatOps.maximumf (F := Ideal) (φ := .f32)) T (val_main_cst_1 (F := Ideal))
    reducesTo_S128x128x49x37_S128x128x37_d2 h h_S_ (ix3 i j w)).trans ?_
  have e : (T ∘ h.lift (ix3 i j w)) = fun r : Fin 49 => T (ix4 i j r w) :=
    funext fun r => congrArg T (funext fun a => Fin.ext (by
      match a with | ⟨0, _⟩ => rfl | ⟨1, _⟩ => rfl | ⟨2, _⟩ => rfl | ⟨3, _⟩ => rfl))
  rw [e]
  rfl

/-- The maximum over the words at `(i, j, r)`: the fold of `max` from minus infinity over `w` of the table's
    entries `(i, j, r, w)`. -/
theorem max_over_words (x0 : (⟨S128x50x1024, .f32⟩ : BufTy).Contents (Elt Ideal)) (x1 : (⟨S128x40x1024, .f32⟩ : BufTy).Contents (Elt Ideal))
    (x2 x3 : (⟨S128, .i32⟩ : BufTy).Contents (Elt Ideal)) (i j : Fin 128) (r : Fin 49) :
    val_main_v28 (F := Ideal) x0 x1 x2 x3 (ix3 i j r)
      = (Finset.univ : Finset (Fin 37)).fold max Cert.Align.negInf
          (fun w => val_main_v25 (F := Ideal) x0 x1 x2 x3 (ix4 i j r w)) := by
  unfold val_main_v28
  generalize val_main_v25 (F := Ideal) x0 x1 x2 x3 = T
  have h : S128x128x49x37.Reduces [3] S128x128x49 := by decide
  refine (Host.reduce_eq_fold_single (FloatOps.maximumf (F := Ideal) (φ := .f32)) T (val_main_cst_3 (F := Ideal))
    reducesTo_S128x128x49x37_S128x128x49_d3 h h_S_ (ix3 i j r)).trans ?_
  have e : (T ∘ h.lift (ix3 i j r)) = fun w : Fin 37 => T (ix4 i j r w) :=
    funext fun w => congrArg T (funext fun a => Fin.ext (by
      match a with | ⟨0, _⟩ => rfl | ⟨1, _⟩ => rfl | ⟨2, _⟩ => rfl | ⟨3, _⟩ => rfl))
  rw [e]
  rfl

/-! ## The result -/

/-- The reference's result is the specified array: at `(i, j)` each of its two sums starts from the number zero,
    which adds nothing, and runs over the maxima of the table whose entries are the specification's. -/
theorem ref_eq (x0 : (⟨S128x50x1024, .f32⟩ : BufTy).Contents (Elt Ideal)) (x1 : (⟨S128x40x1024, .f32⟩ : BufTy).Contents (Elt Ideal))
    (x2 x3 : (⟨S128, .i32⟩ : BufTy).Contents (Elt Ideal)) :
    val_main_v30 (F := Ideal) x0 x1 x2 x3 = Cert.Align.G x0 x1 x2 x3 := by
  funext y
  obtain ⟨i, j, rfl⟩ : ∃ (i : Fin 128) (j : Fin 128), y = ix2 i j := ⟨y 0, y 1, eq_ix2 y⟩
  rw [val_main_v30_apply, val_main_v27_apply, val_main_v29_apply, val_main_cst_2_apply, val_main_cst_4_apply]
  have e27 : ∀ k : Fin 37, idx_main_v27 (ix2 i j) k = ix3 i j k := fun k =>
    funext fun a => Fin.ext (by match a with | ⟨0, _⟩ => rfl | ⟨1, _⟩ => rfl | ⟨2, _⟩ => rfl)
  have e29 : ∀ k : Fin 49, idx_main_v29 (ix2 i j) k = ix3 i j k := fun k =>
    funext fun a => Fin.ext (by match a with | ⟨0, _⟩ => rfl | ⟨1, _⟩ => rfl | ⟨2, _⟩ => rfl)
  simp only [e27, e29, max_over_regions, max_over_words, table_entry]
  show (Ideal.ofBits .f32 0x00000000#32 + _) + (Ideal.ofBits .f32 0x00000000#32 + _) = _
  rw [Ideal.ofBits_zero_f32, zero_add, zero_add]
  rfl

end Cert.Align.RefG

end
-- ==== Proof.lean ====
/-
  Masked image–sentence alignment scores: a Pallas kernel against its jnp reference, on the extended reals.

  For each of 128 images and 128 sentences both programs form the 49 × 37 table of inner products, over 1024 features,
  of the image's regions (the first dropped) with the sentence's words (the first and the last two dropped), zero it
  outside the image's and the sentence's valid lengths, and return the sum over the words of the maximum over the
  regions plus the sum over the regions of the maximum over the words. The kernel streams the sentences 32 at a time
  over a grid of four points, computes for each sentence one row of 128 image scores in a counted loop, masks by
  multiplying with 0/1 arrays, and its result is transposed afterwards; the reference computes all 128 × 128 tables
  at once and masks by selecting zero.

  Both results are shown to be ONE function of the four argument arrays (`Cert.Align.G`): the kernel's through what a
  loop trip stores, what a grid point leaves in its block, how the four row blocks tile the array, the arrays the
  host lines before the region build, and the transposition after it; the reference's one host operation at a time.
  Masking by a product with one or zero and masking by selection agree for every extended real, so the inputs'
  finiteness is never used. The three programs' frames are their runs with the results forgotten, and the idealized
  kernel is the printed kernel's text read on the extended reals, with nothing rewritten.
-/
import proofs.«151405_j51453708206435_2_alg».proof.Defs
import proofs.«151405_j51453708206435_2_alg».proof.Proof.Gen.Kernel
import proofs.«151405_j51453708206435_2_alg».proof.Proof.Gen.Kernel.Skeleton
import proofs.«151405_j51453708206435_2_alg».proof.Proof.Gen.Kernel.Loops
import proofs.«151405_j51453708206435_2_alg».proof.Proof.Gen.Kernel.Launch
import proofs.«151405_j51453708206435_2_alg».proof.Proof.Gen.Kernel.Points
import proofs.«151405_j51453708206435_2_alg».proof.Proof.Gen.Kernel.Frame
import proofs.«151405_j51453708206435_2_alg».proof.Proof.Gen.KernelIdeal
import proofs.«151405_j51453708206435_2_alg».proof.Proof.Gen.KernelIdeal.Skeleton
import proofs.«151405_j51453708206435_2_alg».proof.Proof.Gen.KernelIdeal.Loops
import proofs.«151405_j51453708206435_2_alg».proof.Proof.Gen.KernelIdeal.Launch
import proofs.«151405_j51453708206435_2_alg».proof.Proof.Gen.KernelIdeal.Points
import proofs.«151405_j51453708206435_2_alg».proof.Proof.Gen.KernelIdeal.Frame
import proofs.«151405_j51453708206435_2_alg».proof.Proof.Gen.ReferenceIdeal
import proofs.«151405_j51453708206435_2_alg».proof.Proof.Gen.ReferenceIdeal.Run
import proofs.«151405_j51453708206435_2_alg».proof.Proof.Gen.ReferenceIdeal.Read
import proofs.«151405_j51453708206435_2_alg».proof.Proof.Gen.Pre_finite_inputs
import proofs.«151405_j51453708206435_2_alg».proof.Proof.KernelRun
import proofs.«151405_j51453708206435_2_alg».proof.Proof.RefG
import Idealize.ShloMosaic.Adequacy
import Idealize.ShloMosaic.Init

noncomputable section

namespace Cert.Proof

open Idealize.ShloMosaic Idealize.ShloMosaic.TcCoe Idealize.SL.Sem

/-- The printed kernel program runs to its end and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is host operations only: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments, the idealized kernel and the idealized reference both end with
    their result at the specification of those arguments. -/
theorem algebraic : Cert.algebraic_KernelIdeal_ReferenceIdeal := by
  intro m ρ m' ρ' _ hagree
  refine ⟨fun c => Cert.Align.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Align.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.Align.RefG.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
